-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v171)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v171) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x3 : Shape := ⟨2, ![500000, 3]⟩
abbrev S3x3 : Shape := ⟨2, ![3, 3]⟩
abbrev S4x4 : Shape := ⟨2, ![4, 4]⟩
abbrev S500000 : Shape := ⟨1, ![500000]⟩
abbrev S16000000 : Shape := ⟨1, ![16000000]⟩
abbrev S16000000x3 : Shape := ⟨2, ![16000000, 3]⟩
abbrev S_ : Shape := ⟨0, ![]⟩

class Facts : Prop where
  bcast_S_S500000x3 : S_.BroadcastsInDim S500000x3 (![] : Fin 0 → Fin S500000x3.rank)
  reducesTo_S500000x3_S_d0_1 : S500000x3.ReducesTo [0, 1] S_
  h_S_ : 0 < S_.numel
  bcast_S_S3x3 : S_.BroadcastsInDim S3x3 (![] : Fin 0 → Fin S3x3.rank)
  reducesTo_S3x3_S_d0_1 : S3x3.ReducesTo [0, 1] S_
  bcast_S_S4x4 : S_.BroadcastsInDim S4x4 (![] : Fin 0 → Fin S4x4.rank)
  reducesTo_S4x4_S_d0_1 : S4x4.ReducesTo [0, 1] S_
  bcast_S_S500000 : S_.BroadcastsInDim S500000 (![] : Fin 0 → Fin S500000.rank)
  reducesTo_S500000_S_d0 : S500000.ReducesTo [0] S_

variable [Facts]

def fn_part1 {F : FTy → Type} [FloatOps F] (main_arg4 : FVec F S4x4 .f32) (main_arg5 : IVec S500000 32) (main_v13 : IVec S_ 1) (main_v16 : IVec S4x4 1) : IVec S_ 1 :=
  let main_c_5 : IVec S_ 1 := constantI S_ 1 1#1
  let main_v17 : IVec S_ 1 := (fun x v => Host.reduce IntOp.andi x v reducesTo_S4x4_S_d0_1 h_S_) main_v16 main_c_5
  let main_v18 : IVec S_ 1 := andi main_v13 main_v17
  let main_v19 : FVec F S4x4 .f32 := Host.absf main_arg4
  let main_cst_6 : FVec F S_ .f32 := constant S_ .f32 0x7F800000#32
  let main_v20 : FVec F S4x4 .f32 := broadcastInDim S4x4 ![] bcast_S_S4x4 main_cst_6
  let main_v21 : IVec S4x4 1 := cmpf .olt main_v19 main_v20
  let main_c_7 : IVec S_ 1 := constantI S_ 1 1#1
  let main_v22 : IVec S_ 1 := (fun x v => Host.reduce IntOp.andi x v reducesTo_S4x4_S_d0_1 h_S_) main_v21 main_c_7
  let main_v23 : IVec S_ 1 := andi main_v18 main_v22
  let main_c_8 : IVec S_ 32 := constantI S_ 32 0#32
  let main_v24 : IVec S500000 32 := broadcastInDim S500000 ![] bcast_S_S500000 main_c_8
  let main_v25 : IVec S500000 1 := cmpi .sge main_arg5 main_v24
  let main_c_9 : IVec S_ 1 := constantI S_ 1 1#1
  let main_v26 : IVec S_ 1 := (fun x v => Host.reduce IntOp.andi x v reducesTo_S500000_S_d0 h_S_) main_v25 main_c_9
  let main_v27 : IVec S_ 1 := andi main_v23 main_v26
  let main_c_10 : IVec S_ 32 := constantI S_ 32 4#32
  let main_v28 : IVec S500000 32 := broadcastInDim S500000 ![] bcast_S_S500000 main_c_10
  let main_v29 : IVec S500000 1 := cmpi .slt main_arg5 main_v28
  let main_c_11 : IVec S_ 1 := constantI S_ 1 1#1
  let main_v30 : IVec S_ 1 := (fun x v => Host.reduce IntOp.andi x v reducesTo_S500000_S_d0 h_S_) main_v29 main_c_11
  let main_v31 : IVec S_ 1 := andi main_v27 main_v30
  main_v31

def fn {F : FTy → Type} [FloatOps F] (main_arg0 : FVec F S500000x3 .f32) (main_arg1 : FVec F S3x3 .f32) (main_arg2 : FVec F S4x4 .f32) (main_arg3 : FVec F S4x4 .f32) (main_arg4 : FVec F S4x4 .f32) (main_arg5 : IVec S500000 32) (main_arg6 : IVec S16000000 32) (main_arg7 : IVec S16000000 32) (main_arg8 : IVec S16000000x3 32) : IVec S_ 1 :=
  let main_v0 : FVec F S500000x3 .f32 := Host.absf main_arg0
  let main_cst : FVec F S_ .f32 := constant S_ .f32 0x7F800000#32
  let main_v1 : FVec F S500000x3 .f32 := broadcastInDim S500000x3 ![] bcast_S_S500000x3 main_cst
  let main_v2 : IVec S500000x3 1 := cmpf .olt main_v0 main_v1
  let main_c : IVec S_ 1 := constantI S_ 1 1#1
  let main_v3 : IVec S_ 1 := (fun x v => Host.reduce IntOp.andi x v reducesTo_S500000x3_S_d0_1 h_S_) main_v2 main_c
  let main_v4 : FVec F S3x3 .f32 := Host.absf main_arg1
  let main_cst_0 : FVec F S_ .f32 := constant S_ .f32 0x7F800000#32
  let main_v5 : FVec F S3x3 .f32 := broadcastInDim S3x3 ![] bcast_S_S3x3 main_cst_0
  let main_v6 : IVec S3x3 1 := cmpf .olt main_v4 main_v5
  let main_c_1 : IVec S_ 1 := constantI S_ 1 1#1
  let main_v7 : IVec S_ 1 := (fun x v => Host.reduce IntOp.andi x v reducesTo_S3x3_S_d0_1 h_S_) main_v6 main_c_1
  let main_v8 : IVec S_ 1 := andi main_v3 main_v7
  let main_v9 : FVec F S4x4 .f32 := Host.absf main_arg2
  let main_cst_2 : FVec F S_ .f32 := constant S_ .f32 0x7F800000#32
  let main_v10 : FVec F S4x4 .f32 := broadcastInDim S4x4 ![] bcast_S_S4x4 main_cst_2
  let main_v11 : IVec S4x4 1 := cmpf .olt main_v9 main_v10
  let main_c_3 : IVec S_ 1 := constantI S_ 1 1#1
  let main_v12 : IVec S_ 1 := (fun x v => Host.reduce IntOp.andi x v reducesTo_S4x4_S_d0_1 h_S_) main_v11 main_c_3
  let main_v13 : IVec S_ 1 := andi main_v8 main_v12
  let main_v14 : FVec F S4x4 .f32 := Host.absf main_arg3
  let main_cst_4 : FVec F S_ .f32 := constant S_ .f32 0x7F800000#32
  let main_v15 : FVec F S4x4 .f32 := broadcastInDim S4x4 ![] bcast_S_S4x4 main_cst_4
  let main_v16 : IVec S4x4 1 := cmpf .olt main_v14 main_v15
  fn_part1 (F := F) main_arg4 main_arg5 main_v13 main_v16
-- ==== Kernel.lean ====
abbrev S500000x3 : Shape := ⟨2, ![500000, 3]⟩
abbrev S3x3 : Shape := ⟨2, ![3, 3]⟩
abbrev S4x4 : Shape := ⟨2, ![4, 4]⟩
abbrev S500000 : Shape := ⟨1, ![500000]⟩
abbrev S16000000 : Shape := ⟨1, ![16000000]⟩
abbrev S16000000x3 : Shape := ⟨2, ![16000000, 3]⟩
abbrev S500000x1 : Shape := ⟨2, ![500000, 1]⟩
abbrev S_ : Shape := ⟨0, ![]⟩
abbrev S16000000x1 : Shape := ⟨2, ![16000000, 1]⟩
abbrev S1x1 : Shape := ⟨2, ![1, 1]⟩
abbrev S16 : Shape := ⟨1, ![16]⟩
abbrev S125000x128 : Shape := ⟨2, ![125000, 128]⟩
abbrev S1000x128 : Shape := ⟨2, ![1000, 128]⟩

abbrev nBuf : Space → Nat
  | .hbm => 209
  | .vmem => 14
  | .smem => 0
  | _ => 0

abbrev hbmTy0_0 (i : Nat) : BufTy := match i % 128 with
  | 0 => ⟨S500000x3, .f32⟩
  | 1 => ⟨S3x3, .f32⟩
  | 2 => ⟨S4x4, .f32⟩
  | 3 => ⟨S4x4, .f32⟩
  | 4 => ⟨S4x4, .f32⟩
  | 5 => ⟨S500000, .i32⟩
  | 6 => ⟨S16000000, .i32⟩
  | 7 => ⟨S16000000, .i32⟩
  | 8 => ⟨S16000000x3, .i32⟩
  | 9 => ⟨S500000x1, .f32⟩
  | 10 => ⟨S500000, .f32⟩
  | 11 => ⟨S500000x1, .f32⟩
  | 12 => ⟨S500000, .f32⟩
  | 13 => ⟨S500000x1, .f32⟩
  | 14 => ⟨S500000, .f32⟩
  | 15 => ⟨S_, .i32⟩
  | 16 => ⟨S16000000, .i32⟩
  | 17 => ⟨S16000000, .i1⟩
  | 18 => ⟨S_, .i32⟩
  | 19 => ⟨S16000000, .i32⟩
  | 20 => ⟨S16000000, .i32⟩
  | 21 => ⟨S16000000, .i32⟩
  | 22 => ⟨S16000000x1, .i32⟩
  | 23 => ⟨S16000000, .f32⟩
  | 24 => ⟨S_, .i32⟩
  | 25 => ⟨S16000000, .i32⟩
  | 26 => ⟨S16000000, .i1⟩
  | 27 => ⟨S_, .i32⟩
  | 28 => ⟨S16000000, .i32⟩
  | 29 => ⟨S16000000, .i32⟩
  | 30 => ⟨S16000000, .i32⟩
  | 31 => ⟨S16000000x1, .i32⟩
  | 32 => ⟨S16000000, .f32⟩
  | 33 => ⟨S_, .i32⟩
  | 34 => ⟨S16000000, .i32⟩
  | 35 => ⟨S16000000, .i1⟩
  | 36 => ⟨S_, .i32⟩
  | 37 => ⟨S16000000, .i32⟩
  | 38 => ⟨S16000000, .i32⟩
  | 39 => ⟨S16000000, .i32⟩
  | 40 => ⟨S16000000x1, .i32⟩
  | 41 => ⟨S16000000, .f32⟩
  | 42 => ⟨S_, .i32⟩
  | 43 => ⟨S16000000, .i32⟩
  | 44 => ⟨S16000000, .i1⟩
  | 45 => ⟨S_, .i32⟩
  | 46 => ⟨S16000000, .i32⟩
  | 47 => ⟨S16000000, .i32⟩
  | 48 => ⟨S16000000, .i32⟩
  | 49 => ⟨S16000000x1, .i32⟩
  | 50 => ⟨S16000000, .f32⟩
  | 51 => ⟨S_, .i32⟩
  | 52 => ⟨S16000000, .i32⟩
  | 53 => ⟨S16000000, .i1⟩
  | 54 => ⟨S_, .i32⟩
  | 55 => ⟨S16000000, .i32⟩
  | 56 => ⟨S16000000, .i32⟩
  | 57 => ⟨S16000000, .i32⟩
  | 58 => ⟨S16000000x1, .i32⟩
  | 59 => ⟨S16000000, .f32⟩
  | 60 => ⟨S_, .i32⟩
  | 61 => ⟨S16000000, .i32⟩
  | 62 => ⟨S16000000, .i1⟩
  | 63 => ⟨S_, .i32⟩
  | 64 => ⟨S16000000, .i32⟩
  | 65 => ⟨S16000000, .i32⟩
  | 66 => ⟨S16000000, .i32⟩
  | 67 => ⟨S16000000x1, .i32⟩
  | 68 => ⟨S16000000, .f32⟩
  | 69 => ⟨S16000000x1, .i32⟩
  | 70 => ⟨S16000000, .i32⟩
  | 71 => ⟨S16000000, .f32⟩
  | 72 => ⟨S16000000x1, .i32⟩
  | 73 => ⟨S16000000, .i32⟩
  | 74 => ⟨S16000000, .f32⟩
  | 75 => ⟨S16000000x1, .i32⟩
  | 76 => ⟨S16000000, .i32⟩
  | 77 => ⟨S16000000, .f32⟩
  | 78 => ⟨S1x1, .f32⟩
  | 79 => ⟨S_, .f32⟩
  | 80 => ⟨S16000000, .f32⟩
  | 81 => ⟨S16000000, .f32⟩
  | 82 => ⟨S1x1, .f32⟩
  | 83 => ⟨S_, .f32⟩
  | 84 => ⟨S16000000, .f32⟩
  | 85 => ⟨S16000000, .f32⟩
  | 86 => ⟨S16000000, .f32⟩
  | 87 => ⟨S1x1, .f32⟩
  | 88 => ⟨S_, .f32⟩
  | 89 => ⟨S16000000, .f32⟩
  | 90 => ⟨S16000000, .f32⟩
  | 91 => ⟨S16000000, .f32⟩
  | 92 => ⟨S1x1, .f32⟩
  | 93 => ⟨S_, .f32⟩
  | 94 => ⟨S16000000, .f32⟩
  | 95 => ⟨S16000000, .f32⟩
  | 96 => ⟨S1x1, .f32⟩
  | 97 => ⟨S_, .f32⟩
  | 98 => ⟨S16000000, .f32⟩
  | 99 => ⟨S16000000, .f32⟩
  | 100 => ⟨S16000000, .f32⟩
  | 101 => ⟨S1x1, .f32⟩
  | 102 => ⟨S_, .f32⟩
  | 103 => ⟨S16000000, .f32⟩
  | 104 => ⟨S16000000, .f32⟩
  | 105 => ⟨S16000000, .f32⟩
  | 106 => ⟨S1x1, .f32⟩
  | 107 => ⟨S_, .f32⟩
  | 108 => ⟨S16000000, .f32⟩
  | 109 => ⟨S16000000, .f32⟩
  | 110 => ⟨S1x1, .f32⟩
  | 111 => ⟨S_, .f32⟩
  | 112 => ⟨S16000000, .f32⟩
  | 113 => ⟨S16000000, .f32⟩
  | 114 => ⟨S16000000, .f32⟩
  | 115 => ⟨S1x1, .f32⟩
  | 116 => ⟨S_, .f32⟩
  | 117 => ⟨S16000000, .f32⟩
  | 118 => ⟨S16000000, .f32⟩
  | 119 => ⟨S16000000, .f32⟩
  | 120 => ⟨S16000000, .f32⟩
  | 121 => ⟨S16000000, .f32⟩
  | 122 => ⟨S16000000, .f32⟩
  | 123 => ⟨S16000000, .f32⟩
  | 124 => ⟨S16000000, .f32⟩
  | 125 => ⟨S16000000, .f32⟩
  | 126 => ⟨S_, .i32⟩
  | 127 => ⟨S16000000, .i32⟩
  | _ => ⟨S500000x3, .f32⟩

abbrev hbmTy0_1 (i : Nat) : BufTy := match i % 128 with
  | 0 => ⟨S16000000, .i1⟩
  | 1 => ⟨S_, .i32⟩
  | 2 => ⟨S16000000, .i32⟩
  | 3 => ⟨S16000000, .i32⟩
  | 4 => ⟨S16000000, .i32⟩
  | 5 => ⟨S16000000x1, .i32⟩
  | 6 => ⟨S16000000, .i32⟩
  | 7 => ⟨S_, .i32⟩
  | 8 => ⟨S16000000, .i32⟩
  | 9 => ⟨S16000000, .i1⟩
  | 10 => ⟨S_, .i32⟩
  | 11 => ⟨S16000000, .i32⟩
  | 12 => ⟨S16000000, .i32⟩
  | 13 => ⟨S16000000, .i32⟩
  | 14 => ⟨S16000000x1, .i32⟩
  | 15 => ⟨S16000000, .i32⟩
  | 16 => ⟨S_, .i32⟩
  | 17 => ⟨S16000000, .i32⟩
  | 18 => ⟨S16000000, .i32⟩
  | 19 => ⟨S16000000, .i32⟩
  | 20 => ⟨S4x4, .f32⟩
  | 21 => ⟨S4x4, .f32⟩
  | 22 => ⟨S4x4, .f32⟩
  | 23 => ⟨S16, .f32⟩
  | 24 => ⟨S16, .f32⟩
  | 25 => ⟨S16, .f32⟩
  | 26 => ⟨S_, .i32⟩
  | 27 => ⟨S16000000, .i32⟩
  | 28 => ⟨S16000000, .i1⟩
  | 29 => ⟨S_, .i32⟩
  | 30 => ⟨S16000000, .i32⟩
  | 31 => ⟨S16000000, .i32⟩
  | 32 => ⟨S16000000, .i32⟩
  | 33 => ⟨S16000000x1, .i32⟩
  | 34 => ⟨S16000000, .f32⟩
  | 35 => ⟨S_, .i32⟩
  | 36 => ⟨S16000000, .i32⟩
  | 37 => ⟨S16000000, .i1⟩
  | 38 => ⟨S_, .i32⟩
  | 39 => ⟨S16000000, .i32⟩
  | 40 => ⟨S16000000, .i32⟩
  | 41 => ⟨S16000000, .i32⟩
  | 42 => ⟨S16000000x1, .i32⟩
  | 43 => ⟨S16000000, .f32⟩
  | 44 => ⟨S_, .i32⟩
  | 45 => ⟨S16000000, .i32⟩
  | 46 => ⟨S16000000, .i1⟩
  | 47 => ⟨S_, .i32⟩
  | 48 => ⟨S16000000, .i32⟩
  | 49 => ⟨S16000000, .i32⟩
  | 50 => ⟨S16000000, .i32⟩
  | 51 => ⟨S16000000x1, .i32⟩
  | 52 => ⟨S16000000, .f32⟩
  | 53 => ⟨S125000x128, .f32⟩
  | 54 => ⟨S125000x128, .f32⟩
  | 55 => ⟨S125000x128, .f32⟩
  | 56 => ⟨S125000x128, .f32⟩
  | 57 => ⟨S125000x128, .f32⟩
  | 58 => ⟨S125000x128, .f32⟩
  | 59 => ⟨S125000x128, .f32⟩
  | 60 => ⟨S16000000, .f32⟩
  | 61 => ⟨S_, .f32⟩
  | 62 => ⟨S500000, .f32⟩
  | 63 => ⟨S_, .i32⟩
  | 64 => ⟨S16000000, .i32⟩
  | 65 => ⟨S16000000, .i1⟩
  | 66 => ⟨S_, .i32⟩
  | 67 => ⟨S16000000, .i32⟩
  | 68 => ⟨S16000000, .i32⟩
  | 69 => ⟨S16000000, .i32⟩
  | 70 => ⟨S16000000x1, .i32⟩
  | 71 => ⟨S500000, .f32⟩
  | 72 => ⟨S_, .i32⟩
  | 73 => ⟨S16000000, .i32⟩
  | 74 => ⟨S16000000, .i1⟩
  | 75 => ⟨S_, .i32⟩
  | 76 => ⟨S16000000, .i32⟩
  | 77 => ⟨S16000000, .i32⟩
  | 78 => ⟨S16000000, .i32⟩
  | 79 => ⟨S16000000x1, .i32⟩
  | 80 => ⟨S500000, .f32⟩
  | _ => ⟨S500000x3, .f32⟩

abbrev hbmTy (i : Nat) : BufTy := match i / 128 with
  | 0 => hbmTy0_0 i
  | 1 => hbmTy0_1 i
  | _ => ⟨S500000x3, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1000x128, .f32⟩
  | _, _ => ⟨S500000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_9 : Ref sig .tc := ⟨.hbm, 60, rfl⟩
abbrev main_v41 : Ref sig .tc := ⟨.hbm, 61, rfl⟩
abbrev main_v42 : Ref sig .tc := ⟨.hbm, 62, rfl⟩
abbrev main_c_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_c_11 : Ref sig .tc := ⟨.hbm, 126, rfl⟩
abbrev main_v105 : Ref sig .tc := ⟨.hbm, 127, rfl⟩
abbrev main_v106 : Ref sig .tc := ⟨.hbm, 128, rfl⟩
abbrev main_c_12 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_c_13 : Ref sig .tc := ⟨.hbm, 135, rfl⟩
abbrev main_v112 : Ref sig .tc := ⟨.hbm, 136, rfl⟩
abbrev main_v113 : Ref sig .tc := ⟨.hbm, 137, rfl⟩
abbrev main_c_14 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_c_15 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_c_16 : Ref sig .tc := ⟨.hbm, 154, rfl⟩
abbrev main_v128 : Ref sig .tc := ⟨.hbm, 155, rfl⟩
abbrev main_v129 : Ref sig .tc := ⟨.hbm, 156, rfl⟩
abbrev main_c_17 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_c_18 : Ref sig .tc := ⟨.hbm, 163, rfl⟩
abbrev main_v135 : Ref sig .tc := ⟨.hbm, 164, rfl⟩
abbrev main_v136 : Ref sig .tc := ⟨.hbm, 165, rfl⟩
abbrev main_c_19 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_c_20 : Ref sig .tc := ⟨.hbm, 172, rfl⟩
abbrev main_v142 : Ref sig .tc := ⟨.hbm, 173, rfl⟩
abbrev main_v143 : Ref sig .tc := ⟨.hbm, 174, rfl⟩
abbrev main_c_21 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_cst : Ref sig .tc := ⟨.hbm, 189, rfl⟩
abbrev main_v157 : Ref sig .tc := ⟨.hbm, 190, rfl⟩
abbrev main_c_22 : Ref sig .tc := ⟨.hbm, 191, rfl⟩
abbrev main_v158 : Ref sig .tc := ⟨.hbm, 192, rfl⟩
abbrev main_v159 : Ref sig .tc := ⟨.hbm, 193, rfl⟩
abbrev main_c_23 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_c_24 : Ref sig .tc := ⟨.hbm, 200, rfl⟩
abbrev main_v165 : Ref sig .tc := ⟨.hbm, 201, rfl⟩
abbrev main_v166 : Ref sig .tc := ⟨.hbm, 202, rfl⟩
abbrev main_c_25 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S500000x3_S500000x1_0_0 : S500000x3.Slices ![0, 0] S500000x1
  shapeCasts_S500000x1_S500000 : S500000x1.ShapeCasts S500000
  slices_S500000x3_S500000x1_0_1 : S500000x3.Slices ![0, 1] S500000x1
  slices_S500000x3_S500000x1_0_2 : S500000x3.Slices ![0, 2] S500000x1
  bcast_S_S16000000 : S_.BroadcastsInDim S16000000 (![] : Fin 0 → Fin S16000000.rank)
  bcast_S16000000_S16000000x1_0 : S16000000.BroadcastsInDim S16000000x1 (![0] : Fin 1 → Fin S16000000x1.rank)
  slices_S16000000x3_S16000000x1_0_0 : S16000000x3.Slices ![0, 0] S16000000x1
  shapeCasts_S16000000x1_S16000000 : S16000000x1.ShapeCasts S16000000
  slices_S16000000x3_S16000000x1_0_1 : S16000000x3.Slices ![0, 1] S16000000x1
  slices_S16000000x3_S16000000x1_0_2 : S16000000x3.Slices ![0, 2] S16000000x1
  slices_S3x3_S1x1_0_0 : S3x3.Slices ![0, 0] S1x1
  shapeCasts_S1x1_S_ : S1x1.ShapeCasts S_
  slices_S3x3_S1x1_1_0 : S3x3.Slices ![1, 0] S1x1
  slices_S3x3_S1x1_2_0 : S3x3.Slices ![2, 0] S1x1
  slices_S3x3_S1x1_0_1 : S3x3.Slices ![0, 1] S1x1
  slices_S3x3_S1x1_1_1 : S3x3.Slices ![1, 1] S1x1
  slices_S3x3_S1x1_2_1 : S3x3.Slices ![2, 1] S1x1
  slices_S3x3_S1x1_0_2 : S3x3.Slices ![0, 2] S1x1
  slices_S3x3_S1x1_1_2 : S3x3.Slices ![1, 2] S1x1
  slices_S3x3_S1x1_2_2 : S3x3.Slices ![2, 2] S1x1
  shapeCasts_S4x4_S16 : S4x4.ShapeCasts S16
  shapeCasts_S16000000_S125000x128 : S16000000.ShapeCasts S125000x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  shapeCasts_S125000x128_S16000000 : S125000x128.ShapeCasts S16000000
  bcast_S_S500000 : S_.BroadcastsInDim S500000 (![] : Fin 0 → Fin S500000.rank)
  gather_S500000_S16000000x1_S16000000_n_0_n_n_0_1_1_wf : GatherDims.WF S500000 S16000000x1 S16000000 [] [0] [] [0] [] 1 ![1]
  gather_S16_S16000000x1_S16000000_n_0_n_n_0_1_1_wf : GatherDims.WF S16 S16000000x1 S16000000 [] [0] [] [0] [] 1 ![1]
  scatter_S500000_S16000000x1_S16000000_n_0_0_1_wf : ScatterDims.WF S500000 S16000000x1 S16000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S125000x128.size a
  hwx0_0 : ∀ i : grid0.Coords, EltTy.bits .f32 = 32 ∨ (Rect.block (s := S125000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S125000x128.size a
  hwx0_1 : ∀ i : grid0.Coords, EltTy.bits .f32 = 32 ∨ (Rect.block (s := S125000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S125000x128.size a
  hwx0_2 : ∀ i : grid0.Coords, EltTy.bits .f32 = 32 ∨ (Rect.block (s := S125000x128) S1000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S125000x128.size a
  hwx0_3 : ∀ i : grid0.Coords, EltTy.bits .f32 = 32 ∨ (Rect.block (s := S125000x128) S1000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x128.size a ≤ S125000x128.size a
  hwx0_4 : ∀ i : grid0.Coords, EltTy.bits .f32 = 32 ∨ (Rect.block (s := S125000x128) S1000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x128.size a ≤ S125000x128.size a
  hwx0_5 : ∀ i : grid0.Coords, EltTy.bits .f32 = 32 ∨ (Rect.block (s := S125000x128) S1000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x128.size a ≤ S125000x128.size a
  hwx0_6 : ∀ i : grid0.Coords, EltTy.bits .f32 = 32 ∨ (Rect.block (s := S125000x128) S1000x128.size (cc0_transform_6 i) (hinb0_6 i)).WholeWords (EltTy.packing .f32)

variable [Facts₀]

def gather_S500000_S16000000x1_S16000000_n_0_n_n_0_1_1 : GatherDims S500000 S16000000x1 S16000000 where
  offsetDims := []
  collapsedSliceDims := [0]
  operandBatchingDims := []
  startIndicesBatchingDims := []
  startIndexMap := [0]
  indexVectorDim := 1
  sliceSizes := ![1]
  wf := gather_S500000_S16000000x1_S16000000_n_0_n_n_0_1_1_wf
def gather_S16_S16000000x1_S16000000_n_0_n_n_0_1_1 : GatherDims S16 S16000000x1 S16000000 where
  offsetDims := []
  collapsedSliceDims := [0]
  operandBatchingDims := []
  startIndicesBatchingDims := []
  startIndexMap := [0]
  indexVectorDim := 1
  sliceSizes := ![1]
  wf := gather_S16_S16000000x1_S16000000_n_0_n_n_0_1_1_wf
def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf

abbrev win0_0 : Pipeline.Window sig grid0 :=
  Pipeline.Window.ofSpec (Memref.whole main_v149) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v150) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v151) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v152) S1000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v153) S1000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v154) S1000x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v155) S1000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S500000x3 : Shape := ⟨2, ![500000, 3]⟩
abbrev S3x3 : Shape := ⟨2, ![3, 3]⟩
abbrev S4x4 : Shape := ⟨2, ![4, 4]⟩
abbrev S500000 : Shape := ⟨1, ![500000]⟩
abbrev S16000000 : Shape := ⟨1, ![16000000]⟩
abbrev S16000000x3 : Shape := ⟨2, ![16000000, 3]⟩
abbrev S_ : Shape := ⟨0, ![]⟩
abbrev S16000000x1 : Shape := ⟨2, ![16000000, 1]⟩
abbrev S16000000x2 : Shape := ⟨2, ![16000000, 2]⟩

abbrev nBuf : Space → Nat
  | .hbm => 145
  | .vmem => 0
  | .smem => 0
  | _ => 0

abbrev hbmTy0_0 (i : Nat) : BufTy := match i % 128 with
  | 0 => ⟨S500000x3, .f32⟩
  | 1 => ⟨S3x3, .f32⟩
  | 2 => ⟨S4x4, .f32⟩
  | 3 => ⟨S4x4, .f32⟩
  | 4 => ⟨S4x4, .f32⟩
  | 5 => ⟨S500000, .i32⟩
  | 6 => ⟨S16000000, .i32⟩
  | 7 => ⟨S16000000, .i32⟩
  | 8 => ⟨S16000000x3, .i32⟩
  | 9 => ⟨S_, .i32⟩
  | 10 => ⟨S16000000, .i32⟩
  | 11 => ⟨S16000000, .i1⟩
  | 12 => ⟨S_, .i32⟩
  | 13 => ⟨S16000000, .i32⟩
  | 14 => ⟨S16000000, .i32⟩
  | 15 => ⟨S16000000, .i32⟩
  | 16 => ⟨S16000000x1, .i32⟩
  | 17 => ⟨S16000000, .i32⟩
  | 18 => ⟨S_, .i32⟩
  | 19 => ⟨S16000000, .i32⟩
  | 20 => ⟨S16000000, .i1⟩
  | 21 => ⟨S_, .i32⟩
  | 22 => ⟨S16000000, .i32⟩
  | 23 => ⟨S16000000, .i32⟩
  | 24 => ⟨S16000000, .i32⟩
  | 25 => ⟨S16000000x1, .i32⟩
  | 26 => ⟨S16000000, .i32⟩
  | 27 => ⟨S_, .i32⟩
  | 28 => ⟨S16000000, .i32⟩
  | 29 => ⟨S16000000, .i1⟩
  | 30 => ⟨S_, .i32⟩
  | 31 => ⟨S16000000, .i32⟩
  | 32 => ⟨S16000000, .i32⟩
  | 33 => ⟨S16000000, .i32⟩
  | 34 => ⟨S_, .i32⟩
  | 35 => ⟨S16000000, .i32⟩
  | 36 => ⟨S16000000, .i1⟩
  | 37 => ⟨S_, .i32⟩
  | 38 => ⟨S16000000, .i32⟩
  | 39 => ⟨S16000000, .i32⟩
  | 40 => ⟨S16000000, .i32⟩
  | 41 => ⟨S16000000x1, .i32⟩
  | 42 => ⟨S16000000x1, .i32⟩
  | 43 => ⟨S16000000x2, .i32⟩
  | 44 => ⟨S16000000, .f32⟩
  | 45 => ⟨S_, .i32⟩
  | 46 => ⟨S16000000, .i32⟩
  | 47 => ⟨S16000000, .i1⟩
  | 48 => ⟨S_, .i32⟩
  | 49 => ⟨S16000000, .i32⟩
  | 50 => ⟨S16000000, .i32⟩
  | 51 => ⟨S16000000, .i32⟩
  | 52 => ⟨S_, .i32⟩
  | 53 => ⟨S16000000, .i32⟩
  | 54 => ⟨S16000000, .i1⟩
  | 55 => ⟨S_, .i32⟩
  | 56 => ⟨S16000000, .i32⟩
  | 57 => ⟨S16000000, .i32⟩
  | 58 => ⟨S16000000, .i32⟩
  | 59 => ⟨S16000000x1, .i32⟩
  | 60 => ⟨S16000000x1, .i32⟩
  | 61 => ⟨S16000000x2, .i32⟩
  | 62 => ⟨S16000000, .f32⟩
  | 63 => ⟨S_, .i32⟩
  | 64 => ⟨S16000000, .i32⟩
  | 65 => ⟨S16000000, .i1⟩
  | 66 => ⟨S_, .i32⟩
  | 67 => ⟨S16000000, .i32⟩
  | 68 => ⟨S16000000, .i32⟩
  | 69 => ⟨S16000000, .i32⟩
  | 70 => ⟨S_, .i32⟩
  | 71 => ⟨S16000000, .i32⟩
  | 72 => ⟨S16000000, .i1⟩
  | 73 => ⟨S_, .i32⟩
  | 74 => ⟨S16000000, .i32⟩
  | 75 => ⟨S16000000, .i32⟩
  | 76 => ⟨S16000000, .i32⟩
  | 77 => ⟨S16000000x1, .i32⟩
  | 78 => ⟨S16000000x1, .i32⟩
  | 79 => ⟨S16000000x2, .i32⟩
  | 80 => ⟨S16000000, .f32⟩
  | 81 => ⟨S_, .i32⟩
  | 82 => ⟨S16000000, .i32⟩
  | 83 => ⟨S16000000, .i1⟩
  | 84 => ⟨S_, .i32⟩
  | 85 => ⟨S16000000, .i32⟩
  | 86 => ⟨S16000000, .i32⟩
  | 87 => ⟨S16000000, .i32⟩
  | 88 => ⟨S16000000x1, .i32⟩
  | 89 => ⟨S16000000x3, .f32⟩
  | 90 => ⟨S_, .i32⟩
  | 91 => ⟨S16000000, .i32⟩
  | 92 => ⟨S16000000, .i1⟩
  | 93 => ⟨S_, .i32⟩
  | 94 => ⟨S16000000, .i32⟩
  | 95 => ⟨S16000000, .i32⟩
  | 96 => ⟨S16000000, .i32⟩
  | 97 => ⟨S16000000x1, .i32⟩
  | 98 => ⟨S16000000x3, .f32⟩
  | 99 => ⟨S16000000x3, .f32⟩
  | 100 => ⟨S16000000x3, .f32⟩
  | 101 => ⟨S16000000x3, .f32⟩
  | 102 => ⟨S16000000x3, .f32⟩
  | 103 => ⟨S16000000x3, .f32⟩
  | 104 => ⟨S_, .f32⟩
  | 105 => ⟨S16000000, .f32⟩
  | 106 => ⟨S16000000, .f32⟩
  | 107 => ⟨S16000000, .f32⟩
  | 108 => ⟨S16000000, .f32⟩
  | 109 => ⟨S16000000, .f32⟩
  | 110 => ⟨S16000000, .f32⟩
  | 111 => ⟨S16000000, .f32⟩
  | 112 => ⟨S16000000, .f32⟩
  | 113 => ⟨S_, .f32⟩
  | 114 => ⟨S16000000, .f32⟩
  | 115 => ⟨S16000000, .f32⟩
  | 116 => ⟨S16000000, .f32⟩
  | 117 => ⟨S16000000, .f32⟩
  | 118 => ⟨S16000000, .f32⟩
  | 119 => ⟨S_, .f32⟩
  | 120 => ⟨S500000, .f32⟩
  | 121 => ⟨S_, .f32⟩
  | 122 => ⟨S16000000, .f32⟩
  | 123 => ⟨S16000000, .f32⟩
  | 124 => ⟨S_, .i32⟩
  | 125 => ⟨S16000000, .i32⟩
  | 126 => ⟨S16000000, .i1⟩
  | 127 => ⟨S_, .i32⟩
  | _ => ⟨S500000x3, .f32⟩

abbrev hbmTy0_1 (i : Nat) : BufTy := match i % 128 with
  | 0 => ⟨S16000000, .i32⟩
  | 1 => ⟨S16000000, .i32⟩
  | 2 => ⟨S16000000, .i32⟩
  | 3 => ⟨S16000000x1, .i32⟩
  | 4 => ⟨S500000, .f32⟩
  | 5 => ⟨S_, .f32⟩
  | 6 => ⟨S16000000, .f32⟩
  | 7 => ⟨S16000000, .f32⟩
  | 8 => ⟨S_, .i32⟩
  | 9 => ⟨S16000000, .i32⟩
  | 10 => ⟨S16000000, .i1⟩
  | 11 => ⟨S_, .i32⟩
  | 12 => ⟨S16000000, .i32⟩
  | 13 => ⟨S16000000, .i32⟩
  | 14 => ⟨S16000000, .i32⟩
  | 15 => ⟨S16000000x1, .i32⟩
  | 16 => ⟨S500000, .f32⟩
  | _ => ⟨S500000x3, .f32⟩

abbrev hbmTy (i : Nat) : BufTy := match i / 128 with
  | 0 => hbmTy0_0 i
  | 1 => hbmTy0_1 i
  | _ => ⟨S500000x3, .f32⟩

abbrev bufTy : (tb : Table) → Fin (tcTables nBuf tb) → BufTy
  | .hbm, ⟨i, _⟩ => hbmTy i
  | _, _ => ⟨S500000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_5 : Ref sig .tc := ⟨.hbm, 34, rfl⟩
abbrev main_v19 : Ref sig .tc := ⟨.hbm, 35, rfl⟩
abbrev main_v20 : Ref sig .tc := ⟨.hbm, 36, rfl⟩
abbrev main_c_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_7 : Ref sig .tc := ⟨.hbm, 45, rfl⟩
abbrev main_v28 : Ref sig .tc := ⟨.hbm, 46, rfl⟩
abbrev main_v29 : Ref sig .tc := ⟨.hbm, 47, rfl⟩
abbrev main_c_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_9 : Ref sig .tc := ⟨.hbm, 52, rfl⟩
abbrev main_v33 : Ref sig .tc := ⟨.hbm, 53, rfl⟩
abbrev main_v34 : Ref sig .tc := ⟨.hbm, 54, rfl⟩
abbrev main_c_10 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_11 : Ref sig .tc := ⟨.hbm, 63, rfl⟩
abbrev main_v42 : Ref sig .tc := ⟨.hbm, 64, rfl⟩
abbrev main_v43 : Ref sig .tc := ⟨.hbm, 65, rfl⟩
abbrev main_c_12 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_13 : Ref sig .tc := ⟨.hbm, 70, rfl⟩
abbrev main_v47 : Ref sig .tc := ⟨.hbm, 71, rfl⟩
abbrev main_v48 : Ref sig .tc := ⟨.hbm, 72, rfl⟩
abbrev main_c_14 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_15 : Ref sig .tc := ⟨.hbm, 81, rfl⟩
abbrev main_v56 : Ref sig .tc := ⟨.hbm, 82, rfl⟩
abbrev main_v57 : Ref sig .tc := ⟨.hbm, 83, rfl⟩
abbrev main_c_16 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_17 : Ref sig .tc := ⟨.hbm, 90, rfl⟩
abbrev main_v63 : Ref sig .tc := ⟨.hbm, 91, rfl⟩
abbrev main_v64 : Ref sig .tc := ⟨.hbm, 92, rfl⟩
abbrev main_c_18 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_19 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_20 : Ref sig .tc := ⟨.hbm, 119, rfl⟩
abbrev main_v88 : Ref sig .tc := ⟨.hbm, 120, rfl⟩
abbrev main_cst_21 : Ref sig .tc := ⟨.hbm, 121, rfl⟩
abbrev main_v89 : Ref sig .tc := ⟨.hbm, 122, rfl⟩
abbrev main_v90 : Ref sig .tc := ⟨.hbm, 123, rfl⟩
abbrev main_c_22 : Ref sig .tc := ⟨.hbm, 124, rfl⟩
abbrev main_v91 : Ref sig .tc := ⟨.hbm, 125, rfl⟩
abbrev main_v92 : Ref sig .tc := ⟨.hbm, 126, rfl⟩
abbrev main_c_23 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_24 : Ref sig .tc := ⟨.hbm, 133, rfl⟩
abbrev main_v98 : Ref sig .tc := ⟨.hbm, 134, rfl⟩
abbrev main_v99 : Ref sig .tc := ⟨.hbm, 135, rfl⟩
abbrev main_c_25 : Ref sig .tc := ⟨.hbm, 136, rfl⟩
abbrev main_v100 : Ref sig .tc := ⟨.hbm, 137, rfl⟩
abbrev main_v101 : Ref sig .tc := ⟨.hbm, 138, rfl⟩
abbrev main_c_26 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩

abbrev nD : Nat := 1
abbrev τ : Topo := Topo.v7x

variable {F : FTy → Type} [FloatOps F]

class Facts₀ : Prop where
  bcast_S_S16000000 : S_.BroadcastsInDim S16000000 (![] : Fin 0 → Fin S16000000.rank)
  bcast_S16000000_S16000000x1_0 : S16000000.BroadcastsInDim S16000000x1 (![0] : Fin 1 → Fin S16000000x1.rank)
  concatenates_S16000000x1_S16000000x1_S16000000x2_d1 : Shape.Concatenates [S16000000x1, S16000000x1] S16000000x2 1
  reducesTo_S16000000x3_S16000000_d1 : S16000000x3.ReducesTo [1] S16000000
  h_S_ : 0 < S_.numel
  bcast_S_S500000 : S_.BroadcastsInDim S500000 (![] : Fin 0 → Fin S500000.rank)
  gather_S500000_S16000000x1_S16000000_n_0_n_n_0_1_1_wf : GatherDims.WF S500000 S16000000x1 S16000000 [] [0] [] [0] [] 1 ![1]
  gather_S4x4_S16000000x2_S16000000_n_01_n_n_01_1_11_wf : GatherDims.WF S4x4 S16000000x2 S16000000 [] [0, 1] [] [0, 1] [] 1 ![1, 1]
  gather_S500000x3_S16000000x1_S16000000x3_1_0_n_n_0_1_13_wf : GatherDims.WF S500000x3 S16000000x1 S16000000x3 [1] [0] [] [0] [] 1 ![1, 3]
  dot_S16000000x3_S3x3_S16000000x3_1_0_0_1_n_n_wf : DotDims.WF S16000000x3 S3x3 S16000000x3 [1] [0] [0] [1] [] []
  scatter_S500000_S16000000x1_S16000000_n_0_0_1_wf : ScatterDims.WF S500000 S16000000x1 S16000000 [] [0] [0] 1

variable [Facts₀]

def gather_S500000_S16000000x1_S16000000_n_0_n_n_0_1_1 : GatherDims S500000 S16000000x1 S16000000 where
  offsetDims := []
  collapsedSliceDims := [0]
  operandBatchingDims := []
  startIndicesBatchingDims := []
  startIndexMap := [0]
  indexVectorDim := 1
  sliceSizes := ![1]
  wf := gather_S500000_S16000000x1_S16000000_n_0_n_n_0_1_1_wf
def gather_S4x4_S16000000x2_S16000000_n_01_n_n_01_1_11 : GatherDims S4x4 S16000000x2 S16000000 where
  offsetDims := []
  collapsedSliceDims := [0, 1]
  operandBatchingDims := []
  startIndicesBatchingDims := []
  startIndexMap := [0, 1]
  indexVectorDim := 1
  sliceSizes := ![1, 1]
  wf := gather_S4x4_S16000000x2_S16000000_n_01_n_n_01_1_11_wf
def gather_S500000x3_S16000000x1_S16000000x3_1_0_n_n_0_1_13 : GatherDims S500000x3 S16000000x1 S16000000x3 where
  offsetDims := [1]
  collapsedSliceDims := [0]
  operandBatchingDims := []
  startIndicesBatchingDims := []
  startIndexMap := [0]
  indexVectorDim := 1
  sliceSizes := ![1, 3]
  wf := gather_S500000x3_S16000000x1_S16000000x3_1_0_n_n_0_1_13_wf
def dot_S16000000x3_S3x3_S16000000x3_1_0_0_1_n_n : DotDims S16000000x3 S3x3 S16000000x3 where
  lhsContracting := [1]
  rhsContracting := [0]
  lhsNonContracting := [0]
  rhsNonContracting := [1]
  lhsBatch := []
  rhsBatch := []
  wf := dot_S16000000x3_S3x3_S16000000x3_1_0_0_1_n_n_wf
def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf

class Facts : Prop extends Facts₀ where

variable [Facts]
-- ==== Proof.KernelBlocks.lean ====
/-
  The pair kernel's output array, whole.

  The launch runs over 125 grid points; at point t every one of the seven windows (six inputs, one output) holds rows
  1000·t … 1000·t + 999 of its [125000, 128] array, all 128 lanes. The body is one pointwise expression: from the three
  displacement components, σ⁶, ε and the cutoff shift of a pair it forms r² = dx² + dy² + dz², r⁶ = (r²·r²)·r²,
  q = σ⁶ / r⁶ and stores ½ · ((4·ε)·(q·q − q) − shift). Since every window moves with the output's block, what point t
  writes back is block t of the SAME pointwise expression of the whole input arrays; the 125 blocks tile the array (the
  point covering row r is r / 1000), so after the run the output array is that expression of the input arrays, entry by
  entry.
-/
import proofs.«181528_j7138235646413_2_alg».proof.Proof.Gen.KernelIdeal.Frame
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.SL.Sem
open Idealize.ShloMosaic.Pipeline (Dat Cfg Window)

variable {F : FTy → Type} [FloatOps F]

/-- Half the shifted Lennard-Jones energy of one pair, from its displacement, σ⁶, ε and cutoff shift, in the
    body's own grouping of the operations. -/
def ljPoint (dx dy dz s6 ep sh : F .f32) : F .f32 :=
  FloatOps.mulf (Scalar.ofBits .f32 0x3F000000#32)
    (FloatOps.subf
      (FloatOps.mulf (FloatOps.mulf (Scalar.ofBits .f32 0x40800000#32) ep)
        (FloatOps.subf
          (FloatOps.mulf
            (FloatOps.divf s6 (FloatOps.mulf (FloatOps.mulf (FloatOps.addf (FloatOps.addf (FloatOps.mulf dx dx) (FloatOps.mulf dy dy)) (FloatOps.mulf dz dz)) (FloatOps.addf (FloatOps.addf (FloatOps.mulf dx dx) (FloatOps.mulf dy dy)) (FloatOps.mulf dz dz))) (FloatOps.addf (FloatOps.addf (FloatOps.mulf dx dx) (FloatOps.mulf dy dy)) (FloatOps.mulf dz dz))))
            (FloatOps.divf s6 (FloatOps.mulf (FloatOps.mulf (FloatOps.addf (FloatOps.addf (FloatOps.mulf dx dx) (FloatOps.mulf dy dy)) (FloatOps.mulf dz dz)) (FloatOps.addf (FloatOps.addf (FloatOps.mulf dx dx) (FloatOps.mulf dy dy)) (FloatOps.mulf dz dz))) (FloatOps.addf (FloatOps.addf (FloatOps.mulf dx dx) (FloatOps.mulf dy dy)) (FloatOps.mulf dz dz)))))
          (FloatOps.divf s6 (FloatOps.mulf (FloatOps.mulf (FloatOps.addf (FloatOps.addf (FloatOps.mulf dx dx) (FloatOps.mulf dy dy)) (FloatOps.mulf dz dz)) (FloatOps.addf (FloatOps.addf (FloatOps.mulf dx dx) (FloatOps.mulf dy dy)) (FloatOps.mulf dz dz))) (FloatOps.addf (FloatOps.addf (FloatOps.mulf dx dx) (FloatOps.mulf dy dy)) (FloatOps.mulf dz dz))))))
      sh)

/-- The pointwise expression over whole arrays of any one shape. -/
def ljArray {s : Shape} (a0 a1 a2 a3 a4 a5 : s.Idx → Elt F .f32) : s.Idx → Elt F .f32 :=
  fun i => ljPoint (a0 i) (a1 i) (a2 i) (a3 i) (a4 i) (a5 i)

theorem hz : (![0, 0] : Fin 2 → Nat) = fun _ => 0 := funext fun a => by fin_cases a <;> rfl

/-- The body's stored value is the pointwise expression of its six loaded blocks. -/
theorem pay_eq (x0 x1 x2 x3 x4 x5 : Vec F S1000x128 .f32) :
    k0_pay1 x0 x1 x2 x3 x4 x5 = ljArray x0 x1 x2 x3 x4 x5 := by
  unfold k0_pay1
  simp only [shapeCast_self]
  rfl

variable (m : (ℓ : Loc nD τ sig) → Buf (Elt F) ℓ)

/-- Every input window sits on the output's block at every grid point, and the output's block indices stay in range. -/
theorem idx_facts : ∀ t : Fin cfg0.N, win0_0.index t (0 : Fin 2) = win0_6.index t (0 : Fin 2)
    ∧ win0_0.index t (1 : Fin 2) = win0_6.index t (1 : Fin 2)
    ∧ win0_1.index t (0 : Fin 2) = win0_6.index t (0 : Fin 2)
    ∧ win0_1.index t (1 : Fin 2) = win0_6.index t (1 : Fin 2)
    ∧ win0_2.index t (0 : Fin 2) = win0_6.index t (0 : Fin 2)
    ∧ win0_2.index t (1 : Fin 2) = win0_6.index t (1 : Fin 2)
    ∧ win0_3.index t (0 : Fin 2) = win0_6.index t (0 : Fin 2)
    ∧ win0_3.index t (1 : Fin 2) = win0_6.index t (1 : Fin 2)
    ∧ win0_4.index t (0 : Fin 2) = win0_6.index t (0 : Fin 2)
    ∧ win0_4.index t (1 : Fin 2) = win0_6.index t (1 : Fin 2)
    ∧ win0_5.index t (0 : Fin 2) = win0_6.index t (0 : Fin 2)
    ∧ win0_5.index t (1 : Fin 2) = win0_6.index t (1 : Fin 2)
    ∧ win0_6.index t (0 : Fin 2) ≤ 124 ∧ win0_6.index t (1 : Fin 2) ≤ 0 :=
  (by decide +kernel : ∀ t : Fin grid0.N, _)

/-- Every block of rows is some grid point's. -/
theorem idx_onto : ∀ (q0 : Fin 125) (q1 : Fin 1), ∃ t : Fin cfg0.N, win0_6.index t = ![q0.val + 0, q1.val + 0] :=
  (by decide +kernel : ∀ (q0 : Fin 125) (q1 : Fin 1), ∃ t : Fin grid0.N, win0_6.index t = ![q0.val + 0, q1.val + 0])

/-- Over ANY six arrays: the pointwise expression of their blocks at point t is block t of the pointwise expression
    of the arrays — each input block is its array read where the output's block says. -/
theorem blocks_read (A0 A1 A2 A3 A4 A5 : S125000x128.Idx → Elt F .f32) (t : Fin cfg0.N) :
    (cfg0.win 6).cut (grid0.coords t) (ljArray (((cfg0.win 0).blk t).view.read (Elt F) A0) (((cfg0.win 1).blk t).view.read (Elt F) A1) (((cfg0.win 2).blk t).view.read (Elt F) A2) (((cfg0.win 3).blk t).view.read (Elt F) A3) (((cfg0.win 4).blk t).view.read (Elt F) A4) (((cfg0.win 5).blk t).view.read (Elt F) A5))
      = ((cfg0.win 6).blk t).view.read (Elt F) (ljArray A0 A1 A2 A3 A4 A5) := by
  obtain ⟨e00, e01, e10, e11, e20, e21, e30, e31, e40, e41, e50, e51, b0, b1⟩ := idx_facts t
  funext j
  show ljPoint (A0 (((cfg0.win 0).blk t).view.emb j)) (A1 (((cfg0.win 1).blk t).view.emb j)) (A2 (((cfg0.win 2).blk t).view.emb j)) (A3 (((cfg0.win 3).blk t).view.emb j)) (A4 (((cfg0.win 4).blk t).view.emb j)) (A5 (((cfg0.win 5).blk t).view.emb j))
     = ljPoint (A0 (((cfg0.win 6).blk t).view.emb j)) (A1 (((cfg0.win 6).blk t).view.emb j)) (A2 (((cfg0.win 6).blk t).view.emb j)) (A3 (((cfg0.win 6).blk t).view.emb j)) (A4 (((cfg0.win 6).blk t).view.emb j)) (A5 (((cfg0.win 6).blk t).view.emb j))
  have hj0 : (j 0).val < 1000 := (j 0).isLt
  have hj1 : (j 1).val < 128 := (j 1).isLt
  have h0 : ((cfg0.win 0).blk t).view.emb j = ((cfg0.win 6).blk t).view.emb j := by
    funext a; apply Fin.ext
    match a with
    | ⟨0, _⟩ => show win0_0.index t (0 : Fin 2) * 1000 + 1 * (j 0).val = win0_6.index t (0 : Fin 2) * 1000 + 1 * (j 0).val; omega
    | ⟨1, _⟩ => show win0_0.index t (1 : Fin 2) * 128 + 1 * (j 1).val = win0_6.index t (1 : Fin 2) * 128 + 1 * (j 1).val; omega
  have h1 : ((cfg0.win 1).blk t).view.emb j = ((cfg0.win 6).blk t).view.emb j := by
    funext a; apply Fin.ext
    match a with
    | ⟨0, _⟩ => show win0_1.index t (0 : Fin 2) * 1000 + 1 * (j 0).val = win0_6.index t (0 : Fin 2) * 1000 + 1 * (j 0).val; omega
    | ⟨1, _⟩ => show win0_1.index t (1 : Fin 2) * 128 + 1 * (j 1).val = win0_6.index t (1 : Fin 2) * 128 + 1 * (j 1).val; omega
  have h2 : ((cfg0.win 2).blk t).view.emb j = ((cfg0.win 6).blk t).view.emb j := by
    funext a; apply Fin.ext
    match a with
    | ⟨0, _⟩ => show win0_2.index t (0 : Fin 2) * 1000 + 1 * (j 0).val = win0_6.index t (0 : Fin 2) * 1000 + 1 * (j 0).val; omega
    | ⟨1, _⟩ => show win0_2.index t (1 : Fin 2) * 128 + 1 * (j 1).val = win0_6.index t (1 : Fin 2) * 128 + 1 * (j 1).val; omega
  have h3 : ((cfg0.win 3).blk t).view.emb j = ((cfg0.win 6).blk t).view.emb j := by
    funext a; apply Fin.ext
    match a with
    | ⟨0, _⟩ => show win0_3.index t (0 : Fin 2) * 1000 + 1 * (j 0).val = win0_6.index t (0 : Fin 2) * 1000 + 1 * (j 0).val; omega
    | ⟨1, _⟩ => show win0_3.index t (1 : Fin 2) * 128 + 1 * (j 1).val = win0_6.index t (1 : Fin 2) * 128 + 1 * (j 1).val; omega
  have h4 : ((cfg0.win 4).blk t).view.emb j = ((cfg0.win 6).blk t).view.emb j := by
    funext a; apply Fin.ext
    match a with
    | ⟨0, _⟩ => show win0_4.index t (0 : Fin 2) * 1000 + 1 * (j 0).val = win0_6.index t (0 : Fin 2) * 1000 + 1 * (j 0).val; omega
    | ⟨1, _⟩ => show win0_4.index t (1 : Fin 2) * 128 + 1 * (j 1).val = win0_6.index t (1 : Fin 2) * 128 + 1 * (j 1).val; omega
  have h5 : ((cfg0.win 5).blk t).view.emb j = ((cfg0.win 6).blk t).view.emb j := by
    funext a; apply Fin.ext
    match a with
    | ⟨0, _⟩ => show win0_5.index t (0 : Fin 2) * 1000 + 1 * (j 0).val = win0_6.index t (0 : Fin 2) * 1000 + 1 * (j 0).val; omega
    | ⟨1, _⟩ => show win0_5.index t (1 : Fin 2) * 128 + 1 * (j 1).val = win0_6.index t (1 : Fin 2) * 128 + 1 * (j 1).val; omega
  rw [h0, h1, h2, h3, h4, h5]

/-- What grid point t writes back is block t of the pointwise expression of the six input arrays as the launch
    finds them. -/
theorem flushed_eq (c : Dev nD) (t : Fin cfg0.N) :
    (dats m 0 c).flushed 6 t = ((cfg0.win 6).blk t).view.read (Elt F) (ljArray (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5))) := by
  show (cfg0.win 6).cut (grid0.coords t) ((dats m 0 c).after 6 t) = _
  rw [after0_6]
  unfold out0_6
  rw [View.canon_unit_zero hz]
  simp only [View.ld_unit_zero (S := S1000x128) hz]
  rw [pay_eq]
  unfold iblk
  exact blocks_read _ _ _ _ _ _ t

/-- An entry of the array lies in point t's block iff each coordinate lies in the block's range on its axis. -/
theorem mem_blk (t : Fin cfg0.N) (i : S125000x128.Idx) :
    i ∈ ((cfg0.win 6).blk t).view.set ↔ ∀ a : Fin 2, win0_6.index t a * S1000x128.size a ≤ (i a).val ∧ (i a).val < win0_6.index t a * S1000x128.size a + S1000x128.size a := by
  show i ∈ ((View.whole main_v155).slice (win0_6.rect t)).set ↔ _
  rw [View.set_slice_whole, Rect.mem_set_unit]
  exact Iff.rfl

/-- The blocks tile the array: entry (r, l) is in the block of the point whose block index is r / 1000. -/
theorem cover (i : S125000x128.Idx) :
    ∃ t : Fin cfg0.N, (cfg0.win 6).flush t = true ∧ i ∈ ((cfg0.win 6).blk t).view.set := by
  have hi0 : (i 0).val < 125000 := (i 0).isLt
  have hi1 : (i 1).val < 128 := (i 1).isLt
  obtain ⟨t, ht⟩ := idx_onto ⟨(i 0).val / 1000, by omega⟩ ⟨(i 1).val / 128, by omega⟩
  have q0 : win0_6.index t (0 : Fin 2) = (i 0).val / 1000 + 0 := congrFun ht 0
  have q1 : win0_6.index t (1 : Fin 2) = (i 1).val / 128 + 0 := congrFun ht 1
  refine ⟨t, flush0_6 t, ?_⟩
  rw [mem_blk]
  intro a
  match a with
  | ⟨0, _⟩ => show win0_6.index t (0 : Fin 2) * 1000 ≤ (i 0).val ∧ (i 0).val < win0_6.index t (0 : Fin 2) * 1000 + 1000; omega
  | ⟨1, _⟩ => show win0_6.index t (1 : Fin 2) * 128 ≤ (i 1).val ∧ (i 1).val < win0_6.index t (1 : Fin 2) * 128 + 128; omega

/-- The output array after the run: the pointwise expression of the six input arrays, entry by entry. -/
theorem final (c : Dev nD) :
    (dats m 0 c).arrAt 6 cfg0.N = ljArray (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) :=
  (dats m 0 c).arrAt_eq_of_cover 6 (ljArray (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5))) (fun t _ => flushed_eq m c t) cover

end Cert.KernelIdeal.Blocks

end
-- ==== Proof.KernelTerms.lean ====
/-
  The host operations around the pair kernel, read as pure terms of the argument arrays.

  Before the launch the program forms, per pair p (16 000 000 of them, later laid out as 125000 rows of 128):
  the three displacement components  pos[j_p, k] − pos[i_p, k] + (s_p0·cell[0,k] + s_p1·cell[1,k]) + s_p2·cell[2,k]
  (each position column is sliced out of the [500000, 3] array and gathered through the pair's end points, an index
  below zero first raised by 500000; the integer shifts are converted to floats), and three per-pair parameters
  looked up in the 4×4 tables flattened to 16 entries, at the flat index 4·species[i_p] + species[j_p] (raised by 16
  when negative): σ⁶ — the table of σ²·(σ²·σ²) —, ε and the cutoff shift. After the launch the per-pair half-energies,
  flattened back to one vector, are accumulated into a zero vector of 500000 atoms at i_p and then at j_p.
-/
import proofs.«181528_j7138235646413_2_alg».proof.Proof.Gen.KernelIdeal

noncomputable section

namespace Cert.KernelIdeal.HostRead

open Cert.KernelIdeal Cert.KernelIdeal.Facts₀ Cert.KernelIdeal.Facts
open Idealize.ShloMosaic

variable {F : FTy → Type} [FloatOps F]

/-- The start indices a gather or scatter is given for an index vector a: entries below zero raised by n (the
    array's extent), stood up as a column. -/
def normIdx (n : BitVec 32) (a : IVec S16000000 32) : IVec S16000000x1 32 :=
  broadcastInDim S16000000x1 ![0] bcast_S16000000_S16000000x1_0
    (select (cmpi .slt a (broadcastInDim S16000000 ![] bcast_S_S16000000 (constantI S_ 32 0#32)))
      (addi a (broadcastInDim S16000000 ![] bcast_S_S16000000 (constantI S_ 32 n))) a)

/-- One coordinate column of the positions, as a vector. -/
def posCol (off : Fin 2 → Nat) (h : S500000x3.Slices off S500000x1) (a0 : FVec F S500000x3 .f32) : FVec F S500000 .f32 :=
  shapeCast S500000 (extractStridedSlice S500000x1 off a0 h) shapeCasts_S500000x1_S500000

/-- A position coordinate gathered through an end-point index vector. -/
def gpos (col : FVec F S500000 .f32) (a : IVec S16000000 32) : FVec F S16000000 .f32 :=
  Host.gather gather_S500000_S16000000x1_S16000000_n_0_n_n_0_1_1 col (normIdx 500000#32 a)

/-- One column of the integer cell shifts, converted to floats. -/
def shCol (off : Fin 2 → Nat) (h : S16000000x3.Slices off S16000000x1) (a8 : IVec S16000000x3 32) : FVec F S16000000 .f32 :=
  sitofp .f32 (shapeCast S16000000 (extractStridedSlice S16000000x1 off a8 h) shapeCasts_S16000000x1_S16000000)

/-- One entry of the cell matrix, spread over all pairs. -/
def cellB (off : Fin 2 → Nat) (h : S3x3.Slices off S1x1) (a1 : FVec F S3x3 .f32) : FVec F S16000000 .f32 :=
  broadcastInDim S16000000 ![] bcast_S_S16000000 (shapeCast S_ (extractStridedSlice S1x1 off a1 h) shapeCasts_S1x1_S_)

/-- One displacement component of every pair. -/
def dispC (op : Fin 2 → Nat) (hp : S500000x3.Slices op S500000x1)
    (o0 : Fin 2 → Nat) (h0 : S3x3.Slices o0 S1x1) (o1 : Fin 2 → Nat) (h1 : S3x3.Slices o1 S1x1) (o2 : Fin 2 → Nat) (h2 : S3x3.Slices o2 S1x1)
    (a0 : FVec F S500000x3 .f32) (a1 : FVec F S3x3 .f32) (a6 a7 : IVec S16000000 32) (a8 : IVec S16000000x3 32) : FVec F S16000000 .f32 :=
  addf (subf (gpos (posCol op hp a0) a7) (gpos (posCol op hp a0) a6))
    (addf (addf (mulf (shCol ![0, 0] slices_S16000000x3_S16000000x1_0_0 a8) (cellB o0 h0 a1))
                (mulf (shCol ![0, 1] slices_S16000000x3_S16000000x1_0_1 a8) (cellB o1 h1 a1)))
          (mulf (shCol ![0, 2] slices_S16000000x3_S16000000x1_0_2 a8) (cellB o2 h2 a1)))

/-- The species label of an end point of every pair. -/
def specG (a5 : IVec S500000 32) (a : IVec S16000000 32) : IVec S16000000 32 :=
  Host.gather gather_S500000_S16000000x1_S16000000_n_0_n_n_0_1_1 a5 (normIdx 500000#32 a)

/-- The flat table index 4·species[i] + species[j] of every pair, as start indices. -/
def flatIdx (a5 : IVec S500000 32) (a6 a7 : IVec S16000000 32) : IVec S16000000x1 32 :=
  normIdx 16#32 (addi (muli (specG a5 a6) (broadcastInDim S16000000 ![] bcast_S_S16000000 (constantI S_ 32 4#32))) (specG a5 a7))

/-- A flattened 16-entry table looked up at every pair's flat index. -/
def look (tab : FVec F S16 .f32) (a5 : IVec S500000 32) (a6 a7 : IVec S16000000 32) : FVec F S16000000 .f32 :=
  Host.gather gather_S16_S16000000x1_S16000000_n_0_n_n_0_1_1 tab (flatIdx a5 a6 a7)

/-- The table of sixth powers σ²·(σ²·σ²), flattened. -/
def sig6 (a2 : FVec F S4x4 .f32) : FVec F S16 .f32 :=
  shapeCast S16 (mulf (mulf a2 a2) (mulf (mulf a2 a2) (mulf a2 a2))) shapeCasts_S4x4_S16

/-- A 4×4 table flattened. -/
def flat (a : FVec F S4x4 .f32) : FVec F S16 .f32 := shapeCast S16 a shapeCasts_S4x4_S16

/-- A per-pair vector laid out as 125000 rows of 128. -/
def toRows (v : FVec F S16000000 .f32) : FVec F S125000x128 .f32 := shapeCast S125000x128 v shapeCasts_S16000000_S125000x128

/-- The per-atom energies from the per-pair half-energies h: accumulated at the first end points, then the second. -/
def energyTail (a6 a7 : IVec S16000000 32) (h : FVec F S16000000 .f32) : FVec F S500000 .f32 :=
  Host.scatterAdd scatter_S500000_S16000000x1_S16000000_n_0_0_1
    (Host.scatterAdd scatter_S500000_S16000000x1_S16000000_n_0_0_1 (broadcastInDim S500000 ![] bcast_S_S500000 (constant S_ .f32 0x00000000#32)) (normIdx 500000#32 a6) h)
    (normIdx 500000#32 a7) h

end Cert.KernelIdeal.HostRead

end
-- ==== Proof.KernelHost.lean ====
/-
  The six arrays the pair kernel is launched on, as the host operations before the launch leave them: each is the
  term of the argument arrays that the program's own lines compose (a displacement component, or a table look-up),
  laid out as 125000 rows of 128.
-/
import proofs.«181528_j7138235646413_2_alg».proof.Proof.Gen.KernelIdeal.Frame
import proofs.«181528_j7138235646413_2_alg».proof.Proof.KernelTerms
import Idealize.ShloMosaic.Lib.StableHlo.Run

noncomputable section

namespace Cert.KernelIdeal.HostRead

open Cert.KernelIdeal Cert.KernelIdeal.Gen Cert.KernelIdeal.Facts₀ Cert.KernelIdeal.Facts
open Idealize.ShloMosaic Idealize.ShloMosaic.TcCoe Idealize.SL.Sem Idealize.ShloMosaic.StableHlo

variable {F : FTy → Type} [FloatOps F]

variable (m : (ℓ : Loc nD τ sig) → Buf (Elt F) ℓ)

set_option maxRecDepth 16384 in
set_option maxHeartbeats 40000000 in
/-- Input window 0's array as the launch finds it. -/
theorem win0_eq (c : Dev nD) : V m c (Pipeline.arrRef spec0 0) = toRows (dispC ![0, 0] Facts₀.slices_S500000x3_S500000x1_0_0 ![0, 0] Facts₀.slices_S3x3_S1x1_0_0 ![1, 0] Facts₀.slices_S3x3_S1x1_1_0 ![2, 0] Facts₀.slices_S3x3_S1x1_2_0 (m ((c : Thread nD τ).loc main_arg0)) (m ((c : Thread nD τ).loc main_arg1)) (m ((c : Thread nD τ).loc main_arg6)) (m ((c : Thread nD τ).loc main_arg7)) (m ((c : Thread nD τ).loc main_arg8))) := by
  show StableHlo.after hostOps0 (fun b => m (c, b)) (Proc.devRef .tc main_v149) = _
  after_results_simp
  rfl

set_option maxRecDepth 16384 in
set_option maxHeartbeats 40000000 in
/-- Input window 1's array as the launch finds it. -/
theorem win1_eq (c : Dev nD) : V m c (Pipeline.arrRef spec0 1) = toRows (dispC ![0, 1] Facts₀.slices_S500000x3_S500000x1_0_1 ![0, 1] Facts₀.slices_S3x3_S1x1_0_1 ![1, 1] Facts₀.slices_S3x3_S1x1_1_1 ![2, 1] Facts₀.slices_S3x3_S1x1_2_1 (m ((c : Thread nD τ).loc main_arg0)) (m ((c : Thread nD τ).loc main_arg1)) (m ((c : Thread nD τ).loc main_arg6)) (m ((c : Thread nD τ).loc main_arg7)) (m ((c : Thread nD τ).loc main_arg8))) := by
  show StableHlo.after hostOps0 (fun b => m (c, b)) (Proc.devRef .tc main_v150) = _
  after_results_simp
  rfl

set_option maxRecDepth 16384 in
set_option maxHeartbeats 40000000 in
/-- Input window 2's array as the launch finds it. -/
theorem win2_eq (c : Dev nD) : V m c (Pipeline.arrRef spec0 2) = toRows (dispC ![0, 2] Facts₀.slices_S500000x3_S500000x1_0_2 ![0, 2] Facts₀.slices_S3x3_S1x1_0_2 ![1, 2] Facts₀.slices_S3x3_S1x1_1_2 ![2, 2] Facts₀.slices_S3x3_S1x1_2_2 (m ((c : Thread nD τ).loc main_arg0)) (m ((c : Thread nD τ).loc main_arg1)) (m ((c : Thread nD τ).loc main_arg6)) (m ((c : Thread nD τ).loc main_arg7)) (m ((c : Thread nD τ).loc main_arg8))) := by
  show StableHlo.after hostOps0 (fun b => m (c, b)) (Proc.devRef .tc main_v151) = _
  after_results_simp
  rfl

set_option maxRecDepth 16384 in
set_option maxHeartbeats 40000000 in
/-- Input window 3's array as the launch finds it. -/
theorem win3_eq (c : Dev nD) : V m c (Pipeline.arrRef spec0 3) = toRows (look (sig6 (m ((c : Thread nD τ).loc main_arg2))) (m ((c : Thread nD τ).loc main_arg5)) (m ((c : Thread nD τ).loc main_arg6)) (m ((c : Thread nD τ).loc main_arg7))) := by
  show StableHlo.after hostOps0 (fun b => m (c, b)) (Proc.devRef .tc main_v152) = _
  after_results_simp
  rfl

set_option maxRecDepth 16384 in
set_option maxHeartbeats 40000000 in
/-- Input window 4's array as the launch finds it. -/
theorem win4_eq (c : Dev nD) : V m c (Pipeline.arrRef spec0 4) = toRows (look (flat (m ((c : Thread nD τ).loc main_arg3))) (m ((c : Thread nD τ).loc main_arg5)) (m ((c : Thread nD τ).loc main_arg6)) (m ((c : Thread nD τ).loc main_arg7))) := by
  show StableHlo.after hostOps0 (fun b => m (c, b)) (Proc.devRef .tc main_v153) = _
  after_results_simp
  rfl

set_option maxRecDepth 16384 in
set_option maxHeartbeats 40000000 in
/-- Input window 5's array as the launch finds it. -/
theorem win5_eq (c : Dev nD) : V m c (Pipeline.arrRef spec0 5) = toRows (look (flat (m ((c : Thread nD τ).loc main_arg4))) (m ((c : Thread nD τ).loc main_arg5)) (m ((c : Thread nD τ).loc main_arg6)) (m ((c : Thread nD τ).loc main_arg7))) := by
  show StableHlo.after hostOps0 (fun b => m (c, b)) (Proc.devRef .tc main_v154) = _
  after_results_simp
  rfl

end Cert.KernelIdeal.HostRead

end
-- ==== Proof.KernelRun.lean ====
/-
  The kernel program's run, with its result named.

  The frame run leaves the launch's output array at the pointwise pair expression of the six launched arrays, and
  those are the host terms of the arguments; the lines after the launch flatten that array to one value per pair and
  accumulate it into a zero vector over the atoms, first at the pairs' first end points, then at their second. So the
  program's result is that accumulation of the per-pair half-energies — a term of the argument arrays alone.
-/
import proofs.«181528_j7138235646413_2_alg».proof.Proof.Gen.KernelIdeal.Frame
import proofs.«181528_j7138235646413_2_alg».proof.Proof.KernelBlocks
import proofs.«181528_j7138235646413_2_alg».proof.Proof.KernelHost
import Idealize.ShloMosaic.Lib.StableHlo.Run

noncomputable section

namespace Cert.KernelIdeal.HostRead

open Cert.KernelIdeal Cert.KernelIdeal.Gen Cert.KernelIdeal.Facts₀ Cert.KernelIdeal.Facts
open Idealize.ShloMosaic Idealize.ShloMosaic.TcCoe Idealize.SL.Sem Idealize.ShloMosaic.StableHlo

variable {F : FTy → Type} [FloatOps F]

/-- The per-pair half-energies the kernel program computes, one per pair, as a term of the argument arrays. -/
def halfEnergies (a0 : FVec F S500000x3 .f32) (a1 : FVec F S3x3 .f32) (a2 a3 a4 : FVec F S4x4 .f32) (a5 : IVec S500000 32)
    (a6 a7 : IVec S16000000 32) (a8 : IVec S16000000x3 32) : FVec F S16000000 .f32 :=
  shapeCast S16000000
    (Blocks.ljArray (toRows (dispC ![0, 0] Facts₀.slices_S500000x3_S500000x1_0_0 ![0, 0] Facts₀.slices_S3x3_S1x1_0_0 ![1, 0] Facts₀.slices_S3x3_S1x1_1_0 ![2, 0] Facts₀.slices_S3x3_S1x1_2_0 a0 a1 a6 a7 a8)) (toRows (dispC ![0, 1] Facts₀.slices_S500000x3_S500000x1_0_1 ![0, 1] Facts₀.slices_S3x3_S1x1_0_1 ![1, 1] Facts₀.slices_S3x3_S1x1_1_1 ![2, 1] Facts₀.slices_S3x3_S1x1_2_1 a0 a1 a6 a7 a8)) (toRows (dispC ![0, 2] Facts₀.slices_S500000x3_S500000x1_0_2 ![0, 2] Facts₀.slices_S3x3_S1x1_0_2 ![1, 2] Facts₀.slices_S3x3_S1x1_1_2 ![2, 2] Facts₀.slices_S3x3_S1x1_2_2 a0 a1 a6 a7 a8))
      (toRows (look (sig6 a2) a5 a6 a7)) (toRows (look (flat a3) a5 a6 a7)) (toRows (look (flat a4) a5 a6 a7)))
    Facts₀.shapeCasts_S125000x128_S16000000

variable (m : (ℓ : Loc nD τ sig) → Buf (Elt F) ℓ) (ρ : Dev nD → PrngReg)

/-- The launch's output array, as the lines after the launch find it. -/
theorem out_eq (c : Dev nD) :
    Pipeline.withArrays (cfgs 0).spec c (V0 m c) (fun w => (dats m 0 c).arrAt w (cfgs 0).N) (Proc.devRef .tc main_v155)
      = Blocks.ljArray (toRows (dispC ![0, 0] Facts₀.slices_S500000x3_S500000x1_0_0 ![0, 0] Facts₀.slices_S3x3_S1x1_0_0 ![1, 0] Facts₀.slices_S3x3_S1x1_1_0 ![2, 0] Facts₀.slices_S3x3_S1x1_2_0 (m ((c : Thread nD τ).loc main_arg0)) (m ((c : Thread nD τ).loc main_arg1)) (m ((c : Thread nD τ).loc main_arg6)) (m ((c : Thread nD τ).loc main_arg7)) (m ((c : Thread nD τ).loc main_arg8)))) (toRows (dispC ![0, 1] Facts₀.slices_S500000x3_S500000x1_0_1 ![0, 1] Facts₀.slices_S3x3_S1x1_0_1 ![1, 1] Facts₀.slices_S3x3_S1x1_1_1 ![2, 1] Facts₀.slices_S3x3_S1x1_2_1 (m ((c : Thread nD τ).loc main_arg0)) (m ((c : Thread nD τ).loc main_arg1)) (m ((c : Thread nD τ).loc main_arg6)) (m ((c : Thread nD τ).loc main_arg7)) (m ((c : Thread nD τ).loc main_arg8)))) (toRows (dispC ![0, 2] Facts₀.slices_S500000x3_S500000x1_0_2 ![0, 2] Facts₀.slices_S3x3_S1x1_0_2 ![1, 2] Facts₀.slices_S3x3_S1x1_1_2 ![2, 2] Facts₀.slices_S3x3_S1x1_2_2 (m ((c : Thread nD τ).loc main_arg0)) (m ((c : Thread nD τ).loc main_arg1)) (m ((c : Thread nD τ).loc main_arg6)) (m ((c : Thread nD τ).loc main_arg7)) (m ((c : Thread nD τ).loc main_arg8))))
          (toRows (look (sig6 (m ((c : Thread nD τ).loc main_arg2))) (m ((c : Thread nD τ).loc main_arg5)) (m ((c : Thread nD τ).loc main_arg6)) (m ((c : Thread nD τ).loc main_arg7)))) (toRows (look (flat (m ((c : Thread nD τ).loc main_arg3))) (m ((c : Thread nD τ).loc main_arg5)) (m ((c : Thread nD τ).loc main_arg6)) (m ((c : Thread nD τ).loc main_arg7)))) (toRows (look (flat (m ((c : Thread nD τ).loc main_arg4))) (m ((c : Thread nD τ).loc main_arg5)) (m ((c : Thread nD τ).loc main_arg6)) (m ((c : Thread nD τ).loc main_arg7)))) := by
  refine (Pipeline.withArrays_arr spec0 launch0.win.arr_inj c _ _ 6).trans ?_
  refine (Blocks.final m c).trans ?_
  rw [win0_eq m c, win1_eq m c, win2_eq m c, win3_eq m c, win4_eq m c, win5_eq m c]

theorem in6_eq (c : Dev nD) :
    Pipeline.withArrays (cfgs 0).spec c (V0 m c) (fun w => (dats m 0 c).arrAt w (cfgs 0).N) (Proc.devRef .tc main_arg6)
      = m ((c : Thread nD τ).loc main_arg6) :=
  (Pipeline.withArrays_of_ne _ c (V0 m c) _ main_arg6 (by exact (by decide : ∀ w, Pipeline.arrRef spec0 w ≠ main_arg6))).trans (V_main_arg6 m c)

theorem in7_eq (c : Dev nD) :
    Pipeline.withArrays (cfgs 0).spec c (V0 m c) (fun w => (dats m 0 c).arrAt w (cfgs 0).N) (Proc.devRef .tc main_arg7)
      = m ((c : Thread nD τ).loc main_arg7) :=
  (Pipeline.withArrays_of_ne _ c (V0 m c) _ main_arg7 (by exact (by decide : ∀ w, Pipeline.arrRef spec0 w ≠ main_arg7))).trans (V_main_arg7 m c)

set_option maxRecDepth 16384 in
set_option maxHeartbeats 4000000 in
/-- The program's result after the lines that follow the launch. -/
theorem tail_eq (c : Dev nD) :
    Pipeline.afterTail₀ cfgs (dats m) 0 (V0 m) [hostOps1] c main_v171
      = energyTail (m ((c : Thread nD τ).loc main_arg6)) (m ((c : Thread nD τ).loc main_arg7))
          (halfEnergies (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  unfold Pipeline.afterTail₀
  show StableHlo.after hostOps1 (Pipeline.withArrays (cfgs 0).spec c (V0 m c) fun w => (dats m 0 c).arrAt w (cfgs 0).N) (Proc.devRef .tc main_v171) = _
  after_results_simp
  rw [out_eq m c, in6_eq m c, in7_eq m c]
  rfl

/-- The kernel program runs, ends with its result at the accumulated half-energies, and leaves its arguments as
    they were. -/
theorem run : θ_run defs (onTc (τ := τ) (main (F := F))) ⟨m, fun _ => 0, ρ⟩ (fun r => ∀ c : Dev nD,
      r.2.mem ((c.tc : Thread nD τ).loc main_v171)
        = energyTail (m ((c.tc : Thread nD τ).loc main_arg6)) (m ((c.tc : Thread nD τ).loc main_arg7))
            (halfEnergies (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_v171 (Pipeline.mem_restRefs_of main_v171 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩) (run_main m ρ)

end Cert.KernelIdeal.HostRead

end
-- ==== Proof.PairSpec.lean ====
/-
  The quantities both programs compute for one pair, named once.

  For pair p with end-point index vectors I = pair_i and J = pair_j: an index below zero is first raised by the extent
  of the axis it indexes (`wrap`), and a gather then clamps it into the axis (`clampIx`); `atom a p` is the atom row
  this makes of a[p]. The displacement component k is pos[atom J p, k] − pos[atom I p, k] plus the cell shift
  Σ_q s[p,q]·cell[q,k] with the integer shifts converted to reals — written `dK` with the three products summed in a
  fixed left-nested order and `dR` with them as a sum over q. The table entry of the pair is addressed either by the
  flat index 4·species[atom I p] + species[atom J p] wrapped by 16 and clamped into [0,16) (`flatE`), or by the two
  labels each wrapped by 4 and clamped into [0,4) (`rowE`); `unflat` splits a flat index e into (e / 4, e % 4).
-/
import Idealize.ShloMosaic.Lib.ValueIdx
import Idealize.ShloMosaic.PureOps.Ideal

noncomputable section

namespace Cert.PairSpec

open Idealize.ShloMosaic Idealize.ShloMosaic.ValueIdx

/-- An index x with a negative value raised by n. -/
def wrap (n x : BitVec 32) : BitVec 32 := Scalar.select (IntOp.cmpi .slt x 0#32) (IntOp.addi x n) x

/-- An index read signed and clamped into [0, N − 1]. -/
def clampIx (N : Nat) (hN : 0 < N) (x : BitVec 32) : Fin N := ⟨min x.toInt.toNat (N - 1), by omega⟩

/-- The atom row an end-point index vector gives pair p. -/
def atom (a : IVec ⟨1, ![16000000]⟩ 32) (p : Fin 16000000) : Fin 500000 :=
  clampIx 500000 (by decide) (wrap 500000#32 (a (ix1 p)))

/-- The integer cell shift of pair p along lattice vector q, as a real. -/
def shf (a8 : IVec ⟨2, ![16000000, 3]⟩ 32) (p : Fin 16000000) (q : Fin 3) : Ideal .f32 :=
  FloatOps.sitofp (F := Ideal) .f32 (a8 (ix2 p q))

/-- Displacement component k of pair p, the three shift products added left to right. -/
def dK (a0 : FVec Ideal ⟨2, ![500000, 3]⟩ .f32) (a1 : FVec Ideal ⟨2, ![3, 3]⟩ .f32) (a6 a7 : IVec ⟨1, ![16000000]⟩ 32)
    (a8 : IVec ⟨2, ![16000000, 3]⟩ 32) (p : Fin 16000000) (k : Fin 3) : Ideal .f32 :=
  (a0 (ix2 (atom a7 p) k) - a0 (ix2 (atom a6 p) k))
    + ((shf a8 p 0 * a1 (ix2 (0 : Fin 3) k) + shf a8 p 1 * a1 (ix2 (1 : Fin 3) k)) + shf a8 p 2 * a1 (ix2 (2 : Fin 3) k))

/-- Displacement component k of pair p, the shift products as a sum over the lattice vectors. -/
def dR (a0 : FVec Ideal ⟨2, ![500000, 3]⟩ .f32) (a1 : FVec Ideal ⟨2, ![3, 3]⟩ .f32) (a6 a7 : IVec ⟨1, ![16000000]⟩ 32)
    (a8 : IVec ⟨2, ![16000000, 3]⟩ 32) (p : Fin 16000000) (k : Fin 3) : Ideal .f32 :=
  (a0 (ix2 (atom a7 p) k) - a0 (ix2 (atom a6 p) k)) + ∑ q : Fin 3, shf a8 p q * a1 (ix2 q k)

/-- The species label of an end point of pair p. -/
def label (a5 : IVec ⟨1, ![500000]⟩ 32) (a : IVec ⟨1, ![16000000]⟩ 32) (p : Fin 16000000) : BitVec 32 :=
  a5 (ix1 (atom a p))

/-- The flat table position of pair p: 4·label_i + label_j, wrapped by 16, clamped into [0, 16). -/
def flatE (a5 : IVec ⟨1, ![500000]⟩ 32) (a6 a7 : IVec ⟨1, ![16000000]⟩ 32) (p : Fin 16000000) : Fin 16 :=
  clampIx 16 (by decide) (wrap 16#32 (IntOp.addi (IntOp.muli (label a5 a6 p) 4#32) (label a5 a7 p)))

/-- A table coordinate of pair p: a label wrapped by 4, clamped into [0, 4). -/
def rowE (a5 : IVec ⟨1, ![500000]⟩ 32) (a : IVec ⟨1, ![16000000]⟩ 32) (p : Fin 16000000) : Fin 4 :=
  clampIx 4 (by decide) (wrap 4#32 (label a5 a p))

/-- Row and column of a flat position in a 4×4 table stored row by row. -/
def unflatR (e : Fin 16) : Fin 4 := ⟨e.val / 4, by omega⟩
def unflatC (e : Fin 16) : Fin 4 := ⟨e.val % 4, by omega⟩

/-- Half the shifted pair energy from displacement, σ⁶, ε and shift, r² summed left to right:
    ½ · ((4·ε)·(q·q − q) − shift), q = σ⁶ / ((r²·r²)·r²). -/
def ljK (dx dy dz s6 ep sh : Ideal .f32) : Ideal .f32 :=
  Ideal.ofBits .f32 0x3F000000#32
    * ((Ideal.ofBits .f32 0x40800000#32 * ep)
        * (Ideal.div s6 ((((dx * dx + dy * dy) + dz * dz) * ((dx * dx + dy * dy) + dz * dz)) * ((dx * dx + dy * dy) + dz * dz))
            * Ideal.div s6 ((((dx * dx + dy * dy) + dz * dz) * ((dx * dx + dy * dy) + dz * dz)) * ((dx * dx + dy * dy) + dz * dz))
          - Ideal.div s6 ((((dx * dx + dy * dy) + dz * dz) * ((dx * dx + dy * dy) + dz * dz)) * ((dx * dx + dy * dy) + dz * dz)))
      - sh)

section Forms

variable (a0 : FVec Ideal ⟨2, ![500000, 3]⟩ .f32) (a1 : FVec Ideal ⟨2, ![3, 3]⟩ .f32)
  (a2 a3 a4 : FVec Ideal ⟨2, ![4, 4]⟩ .f32) (a5 : IVec ⟨1, ![500000]⟩ 32) (a6 a7 : IVec ⟨1, ![16000000]⟩ 32)
  (a8 : IVec ⟨2, ![16000000, 3]⟩ 32)

/-- The half-energy of pair p as the kernel's program forms it: parameters from the flattened tables at the flat
    position, σ⁶ as σ²·(σ²·σ²). -/
def kForm (p : Fin 16000000) : Ideal .f32 :=
  ljK (dK a0 a1 a6 a7 a8 p 0) (dK a0 a1 a6 a7 a8 p 1) (dK a0 a1 a6 a7 a8 p 2)
    ((a2 (ix2 (unflatR (flatE a5 a6 a7 p)) (unflatC (flatE a5 a6 a7 p))) * a2 (ix2 (unflatR (flatE a5 a6 a7 p)) (unflatC (flatE a5 a6 a7 p))))
      * ((a2 (ix2 (unflatR (flatE a5 a6 a7 p)) (unflatC (flatE a5 a6 a7 p))) * a2 (ix2 (unflatR (flatE a5 a6 a7 p)) (unflatC (flatE a5 a6 a7 p))))
        * (a2 (ix2 (unflatR (flatE a5 a6 a7 p)) (unflatC (flatE a5 a6 a7 p))) * a2 (ix2 (unflatR (flatE a5 a6 a7 p)) (unflatC (flatE a5 a6 a7 p))))))
    (a3 (ix2 (unflatR (flatE a5 a6 a7 p)) (unflatC (flatE a5 a6 a7 p))))
    (a4 (ix2 (unflatR (flatE a5 a6 a7 p)) (unflatC (flatE a5 a6 a7 p))))

/-- r² of pair p as the reference forms it: zero plus the sum over the three components of the squares. -/
def r2R (p : Fin 16000000) : Ideal .f32 :=
  Ideal.ofBits .f32 0x00000000#32 + ∑ k : Fin 3, dR a0 a1 a6 a7 a8 p k * dR a0 a1 a6 a7 a8 p k

/-- q = σ⁶ / r⁶ of pair p as the reference forms it: σ⁶ as (σ·σ·σ)·(σ·σ·σ), σ from the 4×4 table at the two labels. -/
def qR (p : Fin 16000000) : Ideal .f32 :=
  Ideal.div
    (((a2 (ix2 (rowE a5 a6 p) (rowE a5 a7 p)) * a2 (ix2 (rowE a5 a6 p) (rowE a5 a7 p))) * a2 (ix2 (rowE a5 a6 p) (rowE a5 a7 p)))
      * ((a2 (ix2 (rowE a5 a6 p) (rowE a5 a7 p)) * a2 (ix2 (rowE a5 a6 p) (rowE a5 a7 p))) * a2 (ix2 (rowE a5 a6 p) (rowE a5 a7 p))))
    ((r2R a0 a1 a6 a7 a8 p * r2R a0 a1 a6 a7 a8 p) * r2R a0 a1 a6 a7 a8 p)

/-- The half-energy of pair p as the reference forms it. -/
def rForm (p : Fin 16000000) : Ideal .f32 :=
  Ideal.ofBits .f32 0x3F000000#32
    * ((Ideal.ofBits .f32 0x40800000#32 * a3 (ix2 (rowE a5 a6 p) (rowE a5 a7 p)))
        * (qR a0 a1 a2 a5 a6 a7 a8 p * qR a0 a1 a2 a5 a6 a7 a8 p - qR a0 a1 a2 a5 a6 a7 a8 p)
      - a4 (ix2 (rowE a5 a6 p) (rowE a5 a7 p)))

end Forms

end Cert.PairSpec

end
-- ==== Proof.LibEdgeGatherScatter.lean ====
/-
  Gathers and accumulating scatters keyed by ONE integer per edge, in two layouts. Independent of any program.

  An edge list of length `E` carries, per edge `e`, one integer `idx[e, 0]` (the start indices have shape `[E, 1]`).

  1. GATHER.  Rows of a matrix `x : [N, D]` taken at the edges' integers (`x[idx]`: offset axis 1, collapsed axis 0,
     slices `[1, D]`) give `[E, D]`, whose element `(e, c)` is `x` at row `clampRow idx e` — the integer read signed
     and clamped into `[0, N − 1]`, as the gather clamps every start index — and column `c`.  The same integers taken
     along the MIDDLE axis of `x : [B, N, D]` (`x[:, idx, :]`: offset axes 0 and 2, collapsed axis 1, slices
     `[B, 1, D]`) give `[B, E, D]`, whose element `(b, e, o)` is `x` at `(b, clampRow idx e, o)`.

  2. ACCUMULATING SCATTER over the extended reals.  Updates `[E, D]` added into `x : [N, D]` at the rows the edges'
     integers name (window axis 1, inserted axis 0) leave at `(n, c)` the value `x (n, c)` plus the sum, over the edges
     whose integer, read signed, IS `n`, of the update at `(e, c)`; an edge whose integer is outside `[0, N)` lands
     nowhere.  Updates `[B, E, D]` added into `x : [B, N, D]` along the middle axis (window axes 0 and 2, inserted
     axis 1) leave at `(b, n, o)` the value `x (b, n, o)` plus the sum over the same edges of the update at `(b, e, o)`.
     In both layouts the sum ranges over the SAME set of edges, which is what lets a scatter over a matrix whose rows
     pack `B` blocks of width `O` be compared with the scatter over the unpacked `[B, N, O]` array.
-/
import Idealize.ShloMosaic.Lib.ValueIdx
import Idealize.ShloMosaic.PureOps.Ideal

noncomputable section

namespace Cert.Lib

open Idealize.ShloMosaic Idealize.ShloMosaic.ValueIdx

/-! ## The row an edge's integer selects -/

/-- The row of an `N`-row operand that edge `e` reads: its integer `idx[e, 0]`, signed, clamped into `[0, N − 1]`. -/
def clampRow {E w : Nat} (N : Nat) (hN : 0 < N) (idx : IVec ⟨2, ![E, 1]⟩ w) (e : Fin E) : Fin N :=
  ⟨min (idx (ix2 e (0 : Fin 1))).toInt.toNat (N - 1), by omega⟩

/-! ## Gathers -/

section Gather
variable {α : Type}

/-- The dimension numbers of `x[idx]` for an operand `[N, D]`, start indices `[E, 1]` and result `[E, D]`. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- ROWS OF A MATRIX at `(e, c)`: the operand at row `clampRow idx e`, column `c`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGatherDims N D E wf) x idx (ix2 e c) = x (ix2 (clampRow N hN idx e) c) := by
  unfold Host.gather
  congr 1
  funext a
  refine Fin.ext ?_
  match a with
  | ⟨0, _⟩ =>
    show (rowGatherDims N D E wf).start (ix2 e c) idx 0 + (rowGatherDims N D E wf).batchCoord (ix2 e c) 0
        + (rowGatherDims N D E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e c) ⟨List.idxOf (0 : Fin 2) (rowGatherDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N D E wf).start (ix2 e c) idx 1 + (rowGatherDims N D E wf).batchCoord (ix2 e c) 1
        + (rowGatherDims N D E wf).offCoord (ix2 e c) 1 = _
    rw [GatherDims.batchCoord_eq_zero _ _ _ List.not_mem_nil]
    unfold GatherDims.start
    rw [dif_neg (show ¬ (1 : Fin 2) ∈ ([0] : List (Fin 2)) from by decide)]
    have hk : (1 : Fin 2) ∈ (rowGatherDims N D E wf).sKept :=
      (GatherDims.mem_sKept _ _).mpr ⟨(show ¬ (1 : Fin 2) ∈ ([0] : List (Fin 2)) from by decide), List.not_mem_nil⟩
    unfold GatherDims.offCoord
    rw [dif_pos hk]
    simp only [Nat.zero_add, Nat.add_zero]
    rfl

/-- The dimension numbers of `x[:, idx, :]` for an operand `[B, N, D]`, start indices `[E, 1]` and result
    `[B, E, D]`. -/
abbrev midGatherDims (B N D E : Nat)
    (wf : GatherDims.WF ⟨3, ![B, N, D]⟩ ⟨2, ![E, 1]⟩ ⟨3, ![B, E, D]⟩ [0, 2] [1] [] [1] [] 1 ![B, 1, D]) :
    GatherDims ⟨3, ![B, N, D]⟩ ⟨2, ![E, 1]⟩ ⟨3, ![B, E, D]⟩ where
  offsetDims := [0, 2]
  collapsedSliceDims := [1]
  operandBatchingDims := []
  startIndicesBatchingDims := []
  startIndexMap := [1]
  indexVectorDim := 1
  sliceSizes := ![B, 1, D]
  wf := wf

/-- THE MIDDLE AXIS OF A RANK-3 ARRAY at `(b, e, o)`: the operand at `(b, clampRow idx e, o)`. -/
theorem gather_mid_apply {B N D E w : Nat} (hN : 0 < N)
    (wf : GatherDims.WF ⟨3, ![B, N, D]⟩ ⟨2, ![E, 1]⟩ ⟨3, ![B, E, D]⟩ [0, 2] [1] [] [1] [] 1 ![B, 1, D])
    (x : (⟨3, ![B, N, D]⟩ : Shape).Idx → α) (idx : IVec ⟨2, ![E, 1]⟩ w) (b : Fin B) (e : Fin E) (o : Fin D) :
    Host.gather (midGatherDims B N D E wf) x idx (ix3 b e o) = x (ix3 b (clampRow N hN idx e) o) := by
  unfold Host.gather
  congr 1
  funext a
  refine Fin.ext ?_
  match a with
  | ⟨0, _⟩ =>
    show (midGatherDims B N D E wf).start (ix3 b e o) idx 0 + (midGatherDims B N D E wf).batchCoord (ix3 b e o) 0
        + (midGatherDims B N D E wf).offCoord (ix3 b e o) 0 = _
    rw [GatherDims.batchCoord_eq_zero _ _ _ List.not_mem_nil]
    unfold GatherDims.start
    rw [dif_neg (show ¬ (0 : Fin 3) ∈ ([1] : List (Fin 3)) from by decide)]
    have hk : (0 : Fin 3) ∈ (midGatherDims B N D E wf).sKept :=
      (GatherDims.mem_sKept _ _).mpr ⟨(show ¬ (0 : Fin 3) ∈ ([1] : List (Fin 3)) from by decide), List.not_mem_nil⟩
    unfold GatherDims.offCoord
    rw [dif_pos hk]
    simp only [Nat.zero_add, Nat.add_zero]
    rfl
  | ⟨1, _⟩ =>
    show (midGatherDims B N D E wf).start (ix3 b e o) idx 1 + (midGatherDims B N D E wf).batchCoord (ix3 b e o) 1
        + (midGatherDims B N D E wf).offCoord (ix3 b e o) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (midGatherDims B N D E wf).startIndexMap from List.mem_singleton.mpr rfl)]
    have hsi : (midGatherDims B N D E wf).siIdx (ix3 b e o) ⟨List.idxOf (1 : Fin 3) (midGatherDims B N D E wf).startIndexMap,
        List.idxOf_lt_length_iff.2 (List.mem_singleton.mpr rfl)⟩ = ix2 e (0 : Fin 1) := by
      funext b'; refine Fin.ext ?_
      match b' with
      | ⟨0, _⟩ => rfl
      | ⟨1, _⟩ => rfl
    rw [hsi]
    rfl
  | ⟨2, _⟩ =>
    show (midGatherDims B N D E wf).start (ix3 b e o) idx 2 + (midGatherDims B N D E wf).batchCoord (ix3 b e o) 2
        + (midGatherDims B N D E wf).offCoord (ix3 b e o) 2 = _
    rw [GatherDims.batchCoord_eq_zero _ _ _ List.not_mem_nil]
    unfold GatherDims.start
    rw [dif_neg (show ¬ (2 : Fin 3) ∈ ([1] : List (Fin 3)) from by decide)]
    have hk : (2 : Fin 3) ∈ (midGatherDims B N D E wf).sKept :=
      (GatherDims.mem_sKept _ _).mpr ⟨(show ¬ (2 : Fin 3) ∈ ([1] : List (Fin 3)) from by decide), List.not_mem_nil⟩
    unfold GatherDims.offCoord
    rw [dif_pos hk]
    simp only [Nat.zero_add, Nat.add_zero]
    rfl

end Gather

/-! ## Accumulating scatters over the extended reals -/

section Scatter

/-- An operand axis receives a window coordinate exactly when it is not an inserted axis. -/
theorem mem_sKept_iff {s si u : Shape} (d : ScatterDims s si u) (a : Fin s.rank) :
    a ∈ d.sKept ↔ a ∉ d.insertedWindowDims := by
  simp [ScatterDims.sKept, Shape.kept, List.mem_filter, List.mem_finRange]

/-! ### Rows of a matrix -/

/-- The dimension numbers of `x.at[idx].add(upd)` for an operand `[N, D]`, scatter indices `[E, 1]` and updates
    `[E, D]`. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Rows
variable {N D E w : Nat} (wf : ScatterDims.WF ⟨2, ![N, D]⟩ ⟨2, ![E, 1]⟩ ⟨2, ![E, D]⟩ [1] [0] [0] 1)
  (idx : IVec ⟨2, ![E, 1]⟩ w)

/-- On the row axis the window of update `(e, c)` starts at edge `e`'s integer, read signed, … -/
theorem rowScatter_start0 (e : Fin E) (c : Fin D) :
    (rowScatterDims N D E wf).start (ix2 e c) idx 0 = (idx (ix2 e (0 : Fin 1))).toInt := by
  unfold ScatterDims.start
  rw [dif_pos (show (0 : Fin 2) ∈ (rowScatterDims N D E wf).scatterDimsToOperandDims from List.mem_singleton.mpr rfl)]
  have hsi : (rowScatterDims N D E wf).siIdx (ix2 e c) ⟨List.idxOf (0 : Fin 2) (rowScatterDims N D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and on the column axis at zero. -/
theorem rowScatter_start1 (j : (⟨2, ![E, D]⟩ : Shape).Idx) : (rowScatterDims N D E wf).start j idx 1 = 0 := by
  unfold ScatterDims.start
  rw [dif_neg (show ¬ (1 : Fin 2) ∈ ([0] : List (Fin 2)) from by decide)]

/-- The window coordinate is zero on the row axis … -/
theorem rowScatter_window0 (j : (⟨2, ![E, D]⟩ : Shape).Idx) : (rowScatterDims N D E wf).window j 0 = 0 := by
  unfold ScatterDims.window
  rw [dif_neg (fun h => ((mem_sKept_iff _ _).mp h) (List.mem_singleton.mpr rfl))]

/-- … and the update's column on the column axis. -/
theorem rowScatter_window1 (e : Fin E) (c : Fin D) : (rowScatterDims N D E wf).window (ix2 e c) 1 = c.val := by
  have hk : (1 : Fin 2) ∈ (rowScatterDims N D E wf).sKept :=
    (mem_sKept_iff _ _).mpr (show ¬ (1 : Fin 2) ∈ ([0] : List (Fin 2)) from by decide)
  unfold ScatterDims.window
  rw [dif_pos hk]
  rfl

/-- WHERE UPDATE `(e, c)` LANDS: at `(n, c')` exactly when edge `e`'s integer, read signed, is `n` and the columns agree. -/
theorem rowScatter_resultIdx_iff (e : Fin E) (c : Fin D) (n : Fin N) (c' : Fin D) :
    (rowScatterDims N D E wf).resultIdx? (ix2 e c) idx = some (ix2 n c')
      ↔ (idx (ix2 e (0 : Fin 1))).toInt = (n.val : Int) ∧ c = c' := by
  have h0 : (rowScatterDims N D E wf).start (ix2 e c) idx 0 + ((rowScatterDims N D E wf).window (ix2 e c) 0 : Int)
      = (idx (ix2 e (0 : Fin 1))).toInt := by
    rw [rowScatter_start0, rowScatter_window0]; simp
  have h1 : (rowScatterDims N D E wf).start (ix2 e c) idx 1 + ((rowScatterDims N D E wf).window (ix2 e c) 1 : Int)
      = (c.val : Int) := by
    rw [rowScatter_start1, rowScatter_window1]; simp
  constructor
  · intro hs
    unfold ScatterDims.resultIdx? at hs
    split at hs
    · rename_i h
      have hf := Option.some.inj hs
      have e0 : ((rowScatterDims N D E wf).start (ix2 e c) idx 0 + ((rowScatterDims N D E wf).window (ix2 e c) 0 : Int)).toNat
          = n.val := congrArg Fin.val (congrFun hf 0)
      have e1 : ((rowScatterDims N D E wf).start (ix2 e c) idx 1 + ((rowScatterDims N D E wf).window (ix2 e c) 1 : Int)).toNat
          = c'.val := congrArg Fin.val (congrFun hf 1)
      have b0 : 0 ≤ (rowScatterDims N D E wf).start (ix2 e c) idx 0 + ((rowScatterDims N D E wf).window (ix2 e c) 0 : Int) :=
        (h 0).1
      rw [h0] at e0 b0
      rw [h1] at e1
      exact ⟨by omega, Fin.ext (by omega)⟩
    · exact absurd hs (by simp)
  · rintro ⟨hr, rfl⟩
    have hn : n.val < N := n.isLt
    have hc : c.val < D := c.isLt
    have h : ∀ a, 0 ≤ (rowScatterDims N D E wf).start (ix2 e c) idx a + ((rowScatterDims N D E wf).window (ix2 e c) a : Int)
        ∧ (rowScatterDims N D E wf).start (ix2 e c) idx a + ((rowScatterDims N D E wf).window (ix2 e c) a : Int)
          < ((⟨2, ![N, D]⟩ : Shape).size a : Int) := by
      intro a
      match a with
      | ⟨0, _⟩ =>
        show 0 ≤ (rowScatterDims N D E wf).start (ix2 e c) idx 0 + ((rowScatterDims N D E wf).window (ix2 e c) 0 : Int)
          ∧ (rowScatterDims N D E wf).start (ix2 e c) idx 0 + ((rowScatterDims N D E wf).window (ix2 e c) 0 : Int) < (N : Int)
        rw [h0, hr]; omega
      | ⟨1, _⟩ =>
        show 0 ≤ (rowScatterDims N D E wf).start (ix2 e c) idx 1 + ((rowScatterDims N D E wf).window (ix2 e c) 1 : Int)
          ∧ (rowScatterDims N D E wf).start (ix2 e c) idx 1 + ((rowScatterDims N D E wf).window (ix2 e c) 1 : Int) < (D : Int)
        rw [h1]; omega
    unfold ScatterDims.resultIdx?
    rw [dif_pos h]
    refine congrArg some (funext fun a => Fin.ext ?_)
    match a with
    | ⟨0, _⟩ =>
      show ((rowScatterDims N D E wf).start (ix2 e c) idx 0 + ((rowScatterDims N D E wf).window (ix2 e c) 0 : Int)).toNat = n.val
      rw [h0, hr]; omega
    | ⟨1, _⟩ =>
      show ((rowScatterDims N D E wf).start (ix2 e c) idx 1 + ((rowScatterDims N D E wf).window (ix2 e c) 1 : Int)).toNat = c.val
      rw [h1]; omega

/-- ROWS ACCUMULATED INTO A MATRIX at `(n, c)`: the operand there plus the updates `(e, c)` of the edges whose integer
    is `n`. -/
theorem scatterAdd_rows_apply (x : (⟨2, ![N, D]⟩ : Shape).Idx → EReal) (upd : (⟨2, ![E, D]⟩ : Shape).Idx → EReal)
    (n : Fin N) (c : Fin D) :
    Ideal.hostScatterAdd (rowScatterDims N D E wf) x idx upd (ix2 n c)
      = x (ix2 n c) + ∑ e ∈ Finset.univ.filter (fun e : Fin E => (idx (ix2 e (0 : Fin 1))).toInt = (n.val : Int)),
          upd (ix2 e c) := by
  unfold Ideal.hostScatterAdd
  refine congrArg (x (ix2 n c) + ·) ?_
  have key : ∀ j : (⟨2, ![E, D]⟩ : Shape).Idx, (rowScatterDims N D E wf).resultIdx? j idx = some (ix2 n c) →
      (idx (ix2 (j 0 : Fin E) (0 : Fin 1))).toInt = (n.val : Int) ∧ ix2 (j 0 : Fin E) c = j := by
    intro j hj
    obtain ⟨e, c', rfl⟩ : ∃ (e : Fin E) (c' : Fin D), j = ix2 e c' := ⟨j 0, j 1, eq_ix2 j⟩
    obtain ⟨hr, rfl⟩ := (rowScatter_resultIdx_iff wf idx e c' n c).mp hj
    exact ⟨hr, rfl⟩
  refine Finset.sum_nbij' (fun j => (j 0 : Fin E)) (fun e => ix2 e c) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (rowScatter_resultIdx_iff wf idx e c n c).mpr ⟨(Finset.mem_filter.mp he).2, rfl⟩⟩
  · intro j hj
    exact (key j (Finset.mem_filter.mp hj).2).2
  · intro e _
    rfl
  · intro j hj
    exact congrArg upd (key j (Finset.mem_filter.mp hj).2).2.symm

end Rows

/-! ### The middle axis of a rank-3 array -/

/-- The dimension numbers of `x.at[:, idx, :].add(upd)` for an operand `[B, N, D]`, scatter indices `[E, 1]` and
    updates `[B, E, D]`. -/
abbrev midScatterDims (B N D E : Nat)
    (wf : ScatterDims.WF ⟨3, ![B, N, D]⟩ ⟨2, ![E, 1]⟩ ⟨3, ![B, E, D]⟩ [0, 2] [1] [1] 1) :
    ScatterDims ⟨3, ![B, N, D]⟩ ⟨2, ![E, 1]⟩ ⟨3, ![B, E, D]⟩ where
  updateWindowDims := [0, 2]
  insertedWindowDims := [1]
  scatterDimsToOperandDims := [1]
  indexVectorDim := 1
  wf := wf

section Mid
variable {B N D E w : Nat} (wf : ScatterDims.WF ⟨3, ![B, N, D]⟩ ⟨2, ![E, 1]⟩ ⟨3, ![B, E, D]⟩ [0, 2] [1] [1] 1)
  (idx : IVec ⟨2, ![E, 1]⟩ w)

/-- On the middle axis the window of update `(b, e, o)` starts at edge `e`'s integer, read signed, … -/
theorem midScatter_start1 (b : Fin B) (e : Fin E) (o : Fin D) :
    (midScatterDims B N D E wf).start (ix3 b e o) idx 1 = (idx (ix2 e (0 : Fin 1))).toInt := by
  unfold ScatterDims.start
  rw [dif_pos (show (1 : Fin 3) ∈ (midScatterDims B N D E wf).scatterDimsToOperandDims from List.mem_singleton.mpr rfl)]
  have hsi : (midScatterDims B N D E wf).siIdx (ix3 b e o) ⟨List.idxOf (1 : Fin 3) (midScatterDims B N D E wf).scatterDimsToOperandDims,
      List.idxOf_lt_length_iff.2 (List.mem_singleton.mpr rfl)⟩ = ix2 e (0 : Fin 1) := by
    funext b'; refine Fin.ext ?_
    match b' with
    | ⟨0, _⟩ => rfl
    | ⟨1, _⟩ => rfl
  rw [hsi]

/-- … and on the outer axes at zero. -/
theorem midScatter_start0 (j : (⟨3, ![B, E, D]⟩ : Shape).Idx) : (midScatterDims B N D E wf).start j idx 0 = 0 := by
  unfold ScatterDims.start
  rw [dif_neg (show ¬ (0 : Fin 3) ∈ ([1] : List (Fin 3)) from by decide)]
theorem midScatter_start2 (j : (⟨3, ![B, E, D]⟩ : Shape).Idx) : (midScatterDims B N D E wf).start j idx 2 = 0 := by
  unfold ScatterDims.start
  rw [dif_neg (show ¬ (2 : Fin 3) ∈ ([1] : List (Fin 3)) from by decide)]

/-- The window coordinates are the update's outer coordinates, and zero on the middle axis. -/
theorem midScatter_window0 (b : Fin B) (e : Fin E) (o : Fin D) : (midScatterDims B N D E wf).window (ix3 b e o) 0 = b.val := by
  have hk : (0 : Fin 3) ∈ (midScatterDims B N D E wf).sKept :=
    (mem_sKept_iff _ _).mpr (show ¬ (0 : Fin 3) ∈ ([1] : List (Fin 3)) from by decide)
  unfold ScatterDims.window
  rw [dif_pos hk]
  rfl
theorem midScatter_window1 (j : (⟨3, ![B, E, D]⟩ : Shape).Idx) : (midScatterDims B N D E wf).window j 1 = 0 := by
  unfold ScatterDims.window
  rw [dif_neg (fun h => ((mem_sKept_iff _ _).mp h) (List.mem_singleton.mpr rfl))]
theorem midScatter_window2 (b : Fin B) (e : Fin E) (o : Fin D) : (midScatterDims B N D E wf).window (ix3 b e o) 2 = o.val := by
  have hk : (2 : Fin 3) ∈ (midScatterDims B N D E wf).sKept :=
    (mem_sKept_iff _ _).mpr (show ¬ (2 : Fin 3) ∈ ([1] : List (Fin 3)) from by decide)
  unfold ScatterDims.window
  rw [dif_pos hk]
  rfl

/-- WHERE UPDATE `(b, e, o)` LANDS: at `(b', n, o')` exactly when edge `e`'s integer, read signed, is `n` and the outer
    coordinates agree. -/
theorem midScatter_resultIdx_iff (b : Fin B) (e : Fin E) (o : Fin D) (b' : Fin B) (n : Fin N) (o' : Fin D) :
    (midScatterDims B N D E wf).resultIdx? (ix3 b e o) idx = some (ix3 b' n o')
      ↔ (idx (ix2 e (0 : Fin 1))).toInt = (n.val : Int) ∧ b = b' ∧ o = o' := by
  have h0 : (midScatterDims B N D E wf).start (ix3 b e o) idx 0 + ((midScatterDims B N D E wf).window (ix3 b e o) 0 : Int)
      = (b.val : Int) := by
    rw [midScatter_start0, midScatter_window0]; simp
  have h1 : (midScatterDims B N D E wf).start (ix3 b e o) idx 1 + ((midScatterDims B N D E wf).window (ix3 b e o) 1 : Int)
      = (idx (ix2 e (0 : Fin 1))).toInt := by
    rw [midScatter_start1, midScatter_window1]; simp
  have h2 : (midScatterDims B N D E wf).start (ix3 b e o) idx 2 + ((midScatterDims B N D E wf).window (ix3 b e o) 2 : Int)
      = (o.val : Int) := by
    rw [midScatter_start2, midScatter_window2]; simp
  constructor
  · intro hs
    unfold ScatterDims.resultIdx? at hs
    split at hs
    · rename_i h
      have hf := Option.some.inj hs
      have e0 : ((midScatterDims B N D E wf).start (ix3 b e o) idx 0 + ((midScatterDims B N D E wf).window (ix3 b e o) 0 : Int)).toNat
          = b'.val := congrArg Fin.val (congrFun hf 0)
      have e1 : ((midScatterDims B N D E wf).start (ix3 b e o) idx 1 + ((midScatterDims B N D E wf).window (ix3 b e o) 1 : Int)).toNat
          = n.val := congrArg Fin.val (congrFun hf 1)
      have e2 : ((midScatterDims B N D E wf).start (ix3 b e o) idx 2 + ((midScatterDims B N D E wf).window (ix3 b e o) 2 : Int)).toNat
          = o'.val := congrArg Fin.val (congrFun hf 2)
      have b1 : 0 ≤ (midScatterDims B N D E wf).start (ix3 b e o) idx 1 + ((midScatterDims B N D E wf).window (ix3 b e o) 1 : Int) :=
        (h 1).1
      rw [h0] at e0
      rw [h1] at e1 b1
      rw [h2] at e2
      exact ⟨by omega, Fin.ext (by omega), Fin.ext (by omega)⟩
    · exact absurd hs (by simp)
  · rintro ⟨hr, rfl, rfl⟩
    have hb : b.val < B := b.isLt
    have hn : n.val < N := n.isLt
    have ho : o.val < D := o.isLt
    have h : ∀ a, 0 ≤ (midScatterDims B N D E wf).start (ix3 b e o) idx a + ((midScatterDims B N D E wf).window (ix3 b e o) a : Int)
        ∧ (midScatterDims B N D E wf).start (ix3 b e o) idx a + ((midScatterDims B N D E wf).window (ix3 b e o) a : Int)
          < ((⟨3, ![B, N, D]⟩ : Shape).size a : Int) := by
      intro a
      match a with
      | ⟨0, _⟩ =>
        show 0 ≤ (midScatterDims B N D E wf).start (ix3 b e o) idx 0 + ((midScatterDims B N D E wf).window (ix3 b e o) 0 : Int)
          ∧ (midScatterDims B N D E wf).start (ix3 b e o) idx 0 + ((midScatterDims B N D E wf).window (ix3 b e o) 0 : Int) < (B : Int)
        rw [h0]; omega
      | ⟨1, _⟩ =>
        show 0 ≤ (midScatterDims B N D E wf).start (ix3 b e o) idx 1 + ((midScatterDims B N D E wf).window (ix3 b e o) 1 : Int)
          ∧ (midScatterDims B N D E wf).start (ix3 b e o) idx 1 + ((midScatterDims B N D E wf).window (ix3 b e o) 1 : Int) < (N : Int)
        rw [h1, hr]; omega
      | ⟨2, _⟩ =>
        show 0 ≤ (midScatterDims B N D E wf).start (ix3 b e o) idx 2 + ((midScatterDims B N D E wf).window (ix3 b e o) 2 : Int)
          ∧ (midScatterDims B N D E wf).start (ix3 b e o) idx 2 + ((midScatterDims B N D E wf).window (ix3 b e o) 2 : Int) < (D : Int)
        rw [h2]; omega
    unfold ScatterDims.resultIdx?
    rw [dif_pos h]
    refine congrArg some (funext fun a => Fin.ext ?_)
    match a with
    | ⟨0, _⟩ =>
      show ((midScatterDims B N D E wf).start (ix3 b e o) idx 0 + ((midScatterDims B N D E wf).window (ix3 b e o) 0 : Int)).toNat = b.val
      rw [h0]; omega
    | ⟨1, _⟩ =>
      show ((midScatterDims B N D E wf).start (ix3 b e o) idx 1 + ((midScatterDims B N D E wf).window (ix3 b e o) 1 : Int)).toNat = n.val
      rw [h1, hr]; omega
    | ⟨2, _⟩ =>
      show ((midScatterDims B N D E wf).start (ix3 b e o) idx 2 + ((midScatterDims B N D E wf).window (ix3 b e o) 2 : Int)).toNat = o.val
      rw [h2]; omega

/-- THE MIDDLE AXIS ACCUMULATED at `(b, n, o)`: the operand there plus the updates `(b, e, o)` of the edges whose
    integer is `n` — the same edges as in the matrix layout. -/
theorem scatterAdd_mid_apply (x : (⟨3, ![B, N, D]⟩ : Shape).Idx → EReal) (upd : (⟨3, ![B, E, D]⟩ : Shape).Idx → EReal)
    (b : Fin B) (n : Fin N) (o : Fin D) :
    Ideal.hostScatterAdd (midScatterDims B N D E wf) x idx upd (ix3 b n o)
      = x (ix3 b n o) + ∑ e ∈ Finset.univ.filter (fun e : Fin E => (idx (ix2 e (0 : Fin 1))).toInt = (n.val : Int)),
          upd (ix3 b e o) := by
  unfold Ideal.hostScatterAdd
  refine congrArg (x (ix3 b n o) + ·) ?_
  have key : ∀ j : (⟨3, ![B, E, D]⟩ : Shape).Idx, (midScatterDims B N D E wf).resultIdx? j idx = some (ix3 b n o) →
      (idx (ix2 (j 1 : Fin E) (0 : Fin 1))).toInt = (n.val : Int) ∧ ix3 b (j 1 : Fin E) o = j := by
    intro j hj
    obtain ⟨b', e, o', rfl⟩ : ∃ (b' : Fin B) (e : Fin E) (o' : Fin D), j = ix3 b' e o' := ⟨j 0, j 1, j 2, eq_ix3 j⟩
    obtain ⟨hr, rfl, rfl⟩ := (midScatter_resultIdx_iff wf idx b' e o' b n o).mp hj
    exact ⟨hr, rfl⟩
  refine Finset.sum_nbij' (fun j => (j 1 : Fin E)) (fun e => ix3 b e o) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (midScatter_resultIdx_iff wf idx b e o b n o).mpr ⟨(Finset.mem_filter.mp he).2, rfl, rfl⟩⟩
  · intro j hj
    exact (key j (Finset.mem_filter.mp hj).2).2
  · intro e _
    rfl
  · intro j hj
    exact congrArg upd (key j (Finset.mem_filter.mp hj).2).2.symm

end Mid

end Scatter

end Cert.Lib

end
-- ==== Proof.LibEdgeGatherVec.lean ====
/-
  A gather of scalars from a vector, keyed by ONE integer per edge. Independent of any program.

  An edge list of length `E` carries, per edge `e`, one integer `idx[e, 0]` (the start indices have shape `[E, 1]`).
  Elements of a vector `x : [N]` taken at the edges' integers (`x[idx]`: no offset axis, collapsed axis 0, slices
  `[1]`) give `[E]`, whose element `e` is `x` at `clampRow idx e` — the integer read signed and clamped into
  `[0, N − 1]`, as the gather clamps every start index.  This is the matrix gather of rows with the column axis
  removed: the same place is read, and nothing is left of the slice but one element.
-/
import proofs.«181528_j7138235646413_2_alg».proof.Proof.LibEdgeGatherScatter

noncomputable section

namespace Cert.Lib

open Idealize.ShloMosaic Idealize.ShloMosaic.ValueIdx

/-- The dimension numbers of `x[idx]` for an operand `[N]`, start indices `[E, 1]` and result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- ELEMENTS OF A VECTOR at `e`: the operand at `clampRow idx e`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN idx e)) := by
  unfold Host.gather
  congr 1
  funext a
  refine Fin.ext ?_
  match a with
  | ⟨0, _⟩ =>
    show (vecGatherDims N E wf).start (ix1 e) idx 0 + (vecGatherDims N E wf).batchCoord (ix1 e) 0
        + (vecGatherDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Cert.Lib

end
-- ==== Proof.LibColumnToVec.lean ====
/-
  An [a, 1] array shape-cast to the vector [a], read at i: the operand at (i, 0). Any a, any element type.
-/
import Idealize.ShloMosaic.Lib.Pipeline.Value
import Idealize.ShloMosaic.Lib.ValueIdx

namespace Cert.Lib

open Idealize.ShloMosaic Idealize.ShloMosaic.ValueIdx

variable {α : Type}

/-- A COLUMN [a, 1] cast to the vector [a] reads, at i, the column's entry (i, 0). -/
theorem colToVec_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h (ix1 i) (ix2 i (0 : Fin 1)) (by
    rw [Shape.rowMajor_val_two, Shape.rowMajor_val_one]
    show i.val * 1 + 0 = i.val
    omega)

end Cert.Lib
-- ==== Proof.KernelRead.lean ====
/-
  The pair kernel's host-side terms, read at one pair.

  Each term the program forms before the launch is an array over the 16 000 000 pairs built from the argument arrays
  by slices, reshapes, broadcasts, gathers and pointwise arithmetic. Read at pair p every one of these steps is a
  re-indexing or a pointwise operation, so the term at p is a closed expression of a few entries of the arguments:
  an end-point index, raised by the axis length when negative and clamped by the gather, names an atom row; a
  position column gathered there is that atom's coordinate; a column of the integer shifts converted to floats is the
  shift as a real; a 1×1 slice of the cell reshaped to a scalar and spread over all pairs is one cell entry; and a
  16-entry table gathered at the flat index 4·label_i + label_j (raised by 16 when negative, clamped) is the 4×4 table
  at row e / 4, column e % 4 of that position e. Reshaping a per-pair vector to rows of 128 and the result back undoes
  itself, and the launch's output is pointwise in its six inputs; so the output flattened and read at p is the
  half-energy formula of the three displacement components and the three table entries of pair p.
-/
import proofs.«181528_j7138235646413_2_alg».proof.Proof.KernelTerms
import proofs.«181528_j7138235646413_2_alg».proof.Proof.KernelBlocks
import proofs.«181528_j7138235646413_2_alg».proof.Proof.PairSpec
import proofs.«181528_j7138235646413_2_alg».proof.Proof.LibEdgeGatherVec
import proofs.«181528_j7138235646413_2_alg».proof.Proof.LibColumnToVec
import Idealize.ShloMosaic.Lib.Pipeline.Value
import Idealize.ShloMosaic.Lib.ValueIdx
import Idealize.ShloMosaic.PureOps.Ideal

noncomputable section

namespace Cert.KernelIdeal.PairRead

open Cert.KernelIdeal Cert.KernelIdeal.Facts₀ Cert.KernelIdeal.Facts Cert.KernelIdeal.HostRead Cert.PairSpec
open Idealize.ShloMosaic Idealize.ShloMosaic.ValueIdx

/-! ## Start indices -/

/-- The start index of pair p: the pair's entry of the index vector, raised by n when negative. -/
theorem normIdx_apply (n : BitVec 32) (a : IVec S16000000 32) (p : Fin 16000000) :
    normIdx n a (ix2 p (0 : Fin 1)) = wrap n (a (ix1 p)) := by
  unfold normIdx
  rw [broadcastInDim_apply _ _ _ (ix2 p (0 : Fin 1)) (ix1 p) (fun a => by
    match a with
    | ⟨0, _⟩ =>
      show p.val = if (16000000 : Nat) = 1 then 0 else p.val
      rw [if_neg (by decide)])]
  rfl

/-- The row a gather reads for pair p through such start indices: the raised index, clamped into the axis. -/
theorem clampRow_normIdx (N : Nat) (hN : 0 < N) (n : BitVec 32) (a : IVec S16000000 32) (p : Fin 16000000) :
    Cert.Lib.clampRow N hN (normIdx n a) p = clampIx N hN (wrap n (a (ix1 p))) := by
  apply Fin.ext
  show min (normIdx n a (ix2 p (0 : Fin 1))).toInt.toNat (N - 1) = min (wrap n (a (ix1 p))).toInt.toNat (N - 1)
  rw [normIdx_apply]

/-! ## Gathers -/

/-- A vector over the atoms gathered through an end-point index vector reads, at pair p, the atom the index names. -/
theorem gatherAtoms_apply {α : Type} (x : S500000.Idx → α) (a : IVec S16000000 32) (p : Fin 16000000) :
    Host.gather gather_S500000_S16000000x1_S16000000_n_0_n_n_0_1_1 x (normIdx 500000#32 a) (ix1 p) = x (ix1 (atom a p)) := by
  have e := Cert.Lib.gather_vec_apply (N := 500000) (E := 16000000) (by decide)
    Facts₀.gather_S500000_S16000000x1_S16000000_n_0_n_n_0_1_1_wf x (normIdx 500000#32 a) p
  rw [clampRow_normIdx] at e
  exact e

/-- A 16-entry table gathered through start indices built from an index vector. -/
theorem gatherTable_apply {α : Type} (x : S16.Idx → α) (a : IVec S16000000 32) (p : Fin 16000000) :
    Host.gather gather_S16_S16000000x1_S16000000_n_0_n_n_0_1_1 x (normIdx 16#32 a) (ix1 p)
      = x (ix1 (clampIx 16 (by decide) (wrap 16#32 (a (ix1 p))))) := by
  have e := Cert.Lib.gather_vec_apply (N := 16) (E := 16000000) (by decide)
    Facts₀.gather_S16_S16000000x1_S16000000_n_0_n_n_0_1_1_wf x (normIdx 16#32 a) p
  rw [clampRow_normIdx] at e
  exact e

/-! ## The displacement's ingredients at pair p -/

/-- Column k of the positions, as a vector, at atom i. -/
theorem posCol_apply {F : FTy → Type} [FloatOps F] (off : Fin 2 → Nat) (h : S500000x3.Slices off S500000x1)
    (a0 : FVec F S500000x3 .f32) (k : Fin 3) (h0 : off 0 = 0) (h1 : off 1 = k.val) (i : Fin 500000) :
    posCol off h a0 (ix1 i) = a0 (ix2 i k) := by
  unfold posCol
  rw [Cert.Lib.colToVec_apply]
  exact extractStridedSlice_apply off a0 h (ix2 i (0 : Fin 1)) (ix2 i k) (fun a => by
    match a with
    | ⟨0, _⟩ => show i.val = off 0 + i.val; omega
    | ⟨1, _⟩ => show k.val = off 1 + 0; omega)

/-- A position column gathered through an end-point index vector: the coordinate of the atom the index names. -/
theorem gpos_posCol_apply {F : FTy → Type} [FloatOps F] (off : Fin 2 → Nat) (h : S500000x3.Slices off S500000x1)
    (a0 : FVec F S500000x3 .f32) (k : Fin 3) (h0 : off 0 = 0) (h1 : off 1 = k.val) (a : IVec S16000000 32)
    (p : Fin 16000000) : gpos (posCol off h a0) a (ix1 p) = a0 (ix2 (atom a p) k) := by
  unfold gpos
  rw [gatherAtoms_apply, posCol_apply off h a0 k h0 h1]

/-- Column q of the integer shifts, converted, at pair p: the shift as a real. -/
theorem shCol_apply (off : Fin 2 → Nat) (h : S16000000x3.Slices off S16000000x1) (a8 : IVec S16000000x3 32)
    (q : Fin 3) (h0 : off 0 = 0) (h1 : off 1 = q.val) (p : Fin 16000000) :
    shCol (F := Ideal) off h a8 (ix1 p) = shf a8 p q := by
  unfold shCol shf
  rw [sitofp_apply, Cert.Lib.colToVec_apply]
  exact congrArg (FloatOps.sitofp (F := Ideal) .f32) (extractStridedSlice_apply off a8 h (ix2 p (0 : Fin 1)) (ix2 p q) (fun a => by
    match a with
    | ⟨0, _⟩ => show p.val = off 0 + p.val; omega
    | ⟨1, _⟩ => show q.val = off 1 + 0; omega))

/-- A 1×1 slice of the cell, reshaped to a scalar and spread over the pairs: the one entry, at every pair. -/
theorem cellB_apply {F : FTy → Type} [FloatOps F] (off : Fin 2 → Nat) (h : S3x3.Slices off S1x1) (a1 : FVec F S3x3 .f32)
    (r c : Fin 3) (h0 : off 0 = r.val) (h1 : off 1 = c.val) (i : S16000000.Idx) :
    cellB off h a1 i = a1 (ix2 r c) := by
  unfold cellB
  rw [broadcastInDim_apply _ _ _ i ix0 (fun a => a.elim0)]
  rw [shapeCast_apply _ _ ix0 (ix2 (0 : Fin 1) (0 : Fin 1)) (by
    rw [Shape.rowMajor_val_two]
    show (0 : Nat) * 1 + 0 = (Shape.rowMajorPi S_.size ix0).val
    rw [Shape.rowMajorPi_zero])]
  exact extractStridedSlice_apply off a1 h (ix2 (0 : Fin 1) (0 : Fin 1)) (ix2 r c) (fun a => by
    match a with
    | ⟨0, _⟩ => show r.val = off 0 + 0; omega
    | ⟨1, _⟩ => show c.val = off 1 + 0; omega)

/-! ## A displacement component at pair p -/

/-- Component k of the displacement of pair p, whatever offsets name column k of the positions and of the cell. -/
theorem dispC_apply (k : Fin 3)
    (op : Fin 2 → Nat) (hp : S500000x3.Slices op S500000x1) (hp0 : op 0 = 0) (hp1 : op 1 = k.val)
    (o0 : Fin 2 → Nat) (h0 : S3x3.Slices o0 S1x1) (h00 : o0 0 = 0) (h01 : o0 1 = k.val)
    (o1 : Fin 2 → Nat) (h1 : S3x3.Slices o1 S1x1) (h10 : o1 0 = 1) (h11 : o1 1 = k.val)
    (o2 : Fin 2 → Nat) (h2 : S3x3.Slices o2 S1x1) (h20 : o2 0 = 2) (h21 : o2 1 = k.val)
    (a0 : FVec Ideal S500000x3 .f32) (a1 : FVec Ideal S3x3 .f32) (a6 a7 : IVec S16000000 32) (a8 : IVec S16000000x3 32)
    (p : Fin 16000000) :
    dispC op hp o0 h0 o1 h1 o2 h2 a0 a1 a6 a7 a8 (ix1 p) = dK a0 a1 a6 a7 a8 p k := by
  unfold dispC dK
  rw [addf_apply, subf_apply, addf_apply, addf_apply, mulf_apply, mulf_apply, mulf_apply,
    gpos_posCol_apply op hp a0 k hp0 hp1 a7 p, gpos_posCol_apply op hp a0 k hp0 hp1 a6 p,
    shCol_apply _ _ a8 0 rfl rfl p, shCol_apply _ _ a8 1 rfl rfl p, shCol_apply _ _ a8 2 rfl rfl p,
    cellB_apply o0 h0 a1 0 k h00 h01, cellB_apply o1 h1 a1 1 k h10 h11, cellB_apply o2 h2 a1 2 k h20 h21]

/-- The x component. -/
theorem dispC0_apply (a0 : FVec Ideal S500000x3 .f32) (a1 : FVec Ideal S3x3 .f32) (a6 a7 : IVec S16000000 32)
    (a8 : IVec S16000000x3 32) (p : Fin 16000000) :
    dispC ![0, 0] Facts₀.slices_S500000x3_S500000x1_0_0 ![0, 0] Facts₀.slices_S3x3_S1x1_0_0 ![1, 0] Facts₀.slices_S3x3_S1x1_1_0
      ![2, 0] Facts₀.slices_S3x3_S1x1_2_0 a0 a1 a6 a7 a8 (ix1 p) = dK a0 a1 a6 a7 a8 p 0 :=
  dispC_apply 0 _ _ rfl rfl _ _ rfl rfl _ _ rfl rfl _ _ rfl rfl a0 a1 a6 a7 a8 p

/-- The y component. -/
theorem dispC1_apply (a0 : FVec Ideal S500000x3 .f32) (a1 : FVec Ideal S3x3 .f32) (a6 a7 : IVec S16000000 32)
    (a8 : IVec S16000000x3 32) (p : Fin 16000000) :
    dispC ![0, 1] Facts₀.slices_S500000x3_S500000x1_0_1 ![0, 1] Facts₀.slices_S3x3_S1x1_0_1 ![1, 1] Facts₀.slices_S3x3_S1x1_1_1
      ![2, 1] Facts₀.slices_S3x3_S1x1_2_1 a0 a1 a6 a7 a8 (ix1 p) = dK a0 a1 a6 a7 a8 p 1 :=
  dispC_apply 1 _ _ rfl rfl _ _ rfl rfl _ _ rfl rfl _ _ rfl rfl a0 a1 a6 a7 a8 p

/-- The z component. -/
theorem dispC2_apply (a0 : FVec Ideal S500000x3 .f32) (a1 : FVec Ideal S3x3 .f32) (a6 a7 : IVec S16000000 32)
    (a8 : IVec S16000000x3 32) (p : Fin 16000000) :
    dispC ![0, 2] Facts₀.slices_S500000x3_S500000x1_0_2 ![0, 2] Facts₀.slices_S3x3_S1x1_0_2 ![1, 2] Facts₀.slices_S3x3_S1x1_1_2
      ![2, 2] Facts₀.slices_S3x3_S1x1_2_2 a0 a1 a6 a7 a8 (ix1 p) = dK a0 a1 a6 a7 a8 p 2 :=
  dispC_apply 2 _ _ rfl rfl _ _ rfl rfl _ _ rfl rfl _ _ rfl rfl a0 a1 a6 a7 a8 p

/-! ## The table look-ups at pair p -/

/-- The species label gathered through an end-point index vector: the label of the atom the index names. -/
theorem specG_apply (a5 : IVec S500000 32) (a : IVec S16000000 32) (p : Fin 16000000) :
    specG a5 a (ix1 p) = label a5 a p := by
  unfold specG label
  rw [gatherAtoms_apply]

/-- Four times one word vector plus another, at an index. -/
theorem flatWord_apply (u v : IVec S16000000 32) (i : S16000000.Idx) :
    addi (muli u (broadcastInDim S16000000 ![] bcast_S_S16000000 (constantI S_ 32 4#32))) v i
      = IntOp.addi (IntOp.muli (u i) 4#32) (v i) := rfl

/-- A flattened table looked up at pair p: the entry at the pair's flat position. -/
theorem look_apply {F : FTy → Type} [FloatOps F] (tab : FVec F S16 .f32) (a5 : IVec S500000 32) (a6 a7 : IVec S16000000 32)
    (p : Fin 16000000) : look tab a5 a6 a7 (ix1 p) = tab (ix1 (flatE a5 a6 a7 p)) := by
  unfold look flatIdx flatE
  rw [gatherTable_apply, flatWord_apply, specG_apply, specG_apply]

/-- A 4×4 table stored row by row: position e is row e / 4, column e % 4. -/
theorem flat_apply {F : FTy → Type} [FloatOps F] (a : FVec F S4x4 .f32) (e : Fin 16) :
    flat a (ix1 e) = a (ix2 (unflatR e) (unflatC e)) := by
  unfold flat
  exact shapeCast_apply a _ (ix1 e) (ix2 (unflatR e) (unflatC e)) (by
    rw [Shape.rowMajor_val_two, Shape.rowMajor_val_one]
    show e.val / 4 * 4 + e.val % 4 = e.val
    omega)

/-- The flattened table of sixth powers at position e: σ²·(σ²·σ²) of the 4×4 table's entry there. -/
theorem sig6_apply (a2 : FVec Ideal S4x4 .f32) (e : Fin 16) :
    sig6 a2 (ix1 e)
      = (a2 (ix2 (unflatR e) (unflatC e)) * a2 (ix2 (unflatR e) (unflatC e)))
        * ((a2 (ix2 (unflatR e) (unflatC e)) * a2 (ix2 (unflatR e) (unflatC e)))
          * (a2 (ix2 (unflatR e) (unflatC e)) * a2 (ix2 (unflatR e) (unflatC e)))) := by
  show flat (mulf (mulf a2 a2) (mulf (mulf a2 a2) (mulf a2 a2))) (ix1 e) = _
  rw [flat_apply]
  simp only [mulf_apply]

/-! ## The launch's output, flattened, at pair p -/

/-- Over exact reals the body's pointwise expression is the half-energy formula, operation by operation. -/
theorem ljPoint_ideal (dx dy dz s6 ep sh : Ideal .f32) :
    Cert.KernelIdeal.Blocks.ljPoint (F := Ideal) dx dy dz s6 ep sh = ljK dx dy dz s6 ep sh := rfl

/-- Six per-pair vectors laid out as rows of 128, combined pointwise, and flattened back: at index i, the formula of
    the six vectors' entries at i (flattening undoes the layout). -/
theorem cast_ljArray (v0 v1 v2 v3 v4 v5 : FVec Ideal S16000000 .f32) (i : S16000000.Idx) :
    shapeCast S16000000 (Cert.KernelIdeal.Blocks.ljArray (F := Ideal) (toRows v0) (toRows v1) (toRows v2) (toRows v3) (toRows v4) (toRows v5))
        Facts₀.shapeCasts_S125000x128_S16000000 i
      = ljK (v0 i) (v1 i) (v2 i) (v3 i) (v4 i) (v5 i) := by
  have h : ∀ v : FVec Ideal S16000000 .f32,
      toRows v (Shape.reshapeEquiv Facts₀.shapeCasts_S125000x128_S16000000 i) = v i := fun v =>
    congrFun (shapeCast_shapeCast v Facts₀.shapeCasts_S16000000_S125000x128 Facts₀.shapeCasts_S125000x128_S16000000) i
  show Cert.KernelIdeal.Blocks.ljPoint (F := Ideal)
      (toRows v0 (Shape.reshapeEquiv Facts₀.shapeCasts_S125000x128_S16000000 i))
      (toRows v1 (Shape.reshapeEquiv Facts₀.shapeCasts_S125000x128_S16000000 i))
      (toRows v2 (Shape.reshapeEquiv Facts₀.shapeCasts_S125000x128_S16000000 i))
      (toRows v3 (Shape.reshapeEquiv Facts₀.shapeCasts_S125000x128_S16000000 i))
      (toRows v4 (Shape.reshapeEquiv Facts₀.shapeCasts_S125000x128_S16000000 i))
      (toRows v5 (Shape.reshapeEquiv Facts₀.shapeCasts_S125000x128_S16000000 i)) = _
  rw [h v0, h v1, h v2, h v3, h v4, h v5, ljPoint_ideal]

/-- THE KERNEL'S PER-PAIR VALUE: the launch's output on the program's six host-side inputs, flattened and read at
    pair p, is the half-energy of pair p in the kernel's form. -/
theorem kernel_pair (a0 : FVec Ideal S500000x3 .f32) (a1 : FVec Ideal S3x3 .f32) (a2 a3 a4 : FVec Ideal S4x4 .f32)
    (a5 : IVec S500000 32) (a6 a7 : IVec S16000000 32) (a8 : IVec S16000000x3 32) (p : Fin 16000000) :
    shapeCast S16000000
        (Cert.KernelIdeal.Blocks.ljArray (F := Ideal)
          (toRows (dispC ![0, 0] Facts₀.slices_S500000x3_S500000x1_0_0 ![0, 0] Facts₀.slices_S3x3_S1x1_0_0 ![1, 0] Facts₀.slices_S3x3_S1x1_1_0 ![2, 0] Facts₀.slices_S3x3_S1x1_2_0 a0 a1 a6 a7 a8))
          (toRows (dispC ![0, 1] Facts₀.slices_S500000x3_S500000x1_0_1 ![0, 1] Facts₀.slices_S3x3_S1x1_0_1 ![1, 1] Facts₀.slices_S3x3_S1x1_1_1 ![2, 1] Facts₀.slices_S3x3_S1x1_2_1 a0 a1 a6 a7 a8))
          (toRows (dispC ![0, 2] Facts₀.slices_S500000x3_S500000x1_0_2 ![0, 2] Facts₀.slices_S3x3_S1x1_0_2 ![1, 2] Facts₀.slices_S3x3_S1x1_1_2 ![2, 2] Facts₀.slices_S3x3_S1x1_2_2 a0 a1 a6 a7 a8))
          (toRows (look (sig6 a2) a5 a6 a7)) (toRows (look (flat a3) a5 a6 a7)) (toRows (look (flat a4) a5 a6 a7)))
        Facts₀.shapeCasts_S125000x128_S16000000 (ix1 p)
      = kForm a0 a1 a2 a3 a4 a5 a6 a7 a8 p := by
  rw [cast_ljArray, dispC0_apply, dispC1_apply, dispC2_apply, look_apply, look_apply, look_apply, sig6_apply,
    flat_apply, flat_apply]
  rfl

end Cert.KernelIdeal.PairRead

end
-- ==== Proof.LibPairGather.lean ====
/-
  A gather of single entries of a matrix, keyed by a PAIR of integers per edge. Independent of any program.

  An edge list of length `E` carries, per edge `e`, two integers `idx[e, 0]` and `idx[e, 1]` (the start indices
  have shape `[E, 2]`, the pair lying along the last axis).  Entries of a matrix `x : [A, B]` taken at the edges'
  pairs (`x[si, sj]` for two index vectors: no offset axis, both operand axes collapsed, start index map `[0, 1]`,
  slices `[1, 1]`) give `[E]`.  The gather clamps every component of a start index into the axis it addresses, so
  element `e` of the result is `x` at the row `idx[e, 0]`, read signed and clamped into `[0, A − 1]`, and the
  column `idx[e, 1]`, read signed and clamped into `[0, B − 1]`.  Nothing is left of the slice but one entry: the
  batching and offset coordinates vanish on both axes, and only the two clamped starts remain.
-/
import proofs.«181528_j7138235646413_2_alg».proof.Proof.LibEdgeGatherScatter

noncomputable section

namespace Cert.Lib

open Idealize.ShloMosaic Idealize.ShloMosaic.ValueIdx

/-- The dimension numbers of `x[si, sj]` for an operand `[A, B]`, start indices `[E, 2]` and result `[E]`. -/
abbrev pairGatherDims (A B E : Nat)
    (wf : GatherDims.WF ⟨2, ![A, B]⟩ ⟨2, ![E, 2]⟩ ⟨1, ![E]⟩ [] [0, 1] [] [0, 1] [] 1 ![1, 1]) :
    GatherDims ⟨2, ![A, B]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

/-- ENTRIES OF A MATRIX at `e`: the operand at the row `idx[e, 0]` and the column `idx[e, 1]`, each read signed and
    clamped into its axis. -/
theorem gather_pair_apply {α : Type} {A B E w : Nat} (hA : 0 < A) (hB : 0 < B)
    (wf : GatherDims.WF ⟨2, ![A, B]⟩ ⟨2, ![E, 2]⟩ ⟨1, ![E]⟩ [] [0, 1] [] [0, 1] [] 1 ![1, 1])
    (x : (⟨2, ![A, B]⟩ : Shape).Idx → α) (idx : IVec ⟨2, ![E, 2]⟩ w) (e : Fin E) :
    Host.gather (pairGatherDims A B E wf) x idx (ix1 e)
      = x (ix2 (⟨min (idx (ix2 e (0 : Fin 2))).toInt.toNat (A - 1), by omega⟩ : Fin A)
              (⟨min (idx (ix2 e (1 : Fin 2))).toInt.toNat (B - 1), by omega⟩ : Fin B)) := by
  unfold Host.gather
  congr 1
  funext a
  refine Fin.ext ?_
  -- both operand axes are collapsed and addressed by the start index: no batching, no offset, a clamped start
  have h0 : (0 : Fin 2) ∈ (pairGatherDims A B E wf).startIndexMap := List.mem_cons_self
  have h1 : (1 : Fin 2) ∈ (pairGatherDims A B E wf).startIndexMap :=
    List.mem_cons_of_mem _ (List.mem_singleton.mpr rfl)
  match a with
  | ⟨0, _⟩ =>
    show (pairGatherDims A B E wf).start (ix1 e) idx 0 + (pairGatherDims A B E wf).batchCoord (ix1 e) 0
        + (pairGatherDims A B E wf).offCoord (ix1 e) 0 = _
    rw [GatherDims.batchCoord_eq_zero _ _ _ List.not_mem_nil,
      GatherDims.offCoord_eq_zero _ _ _ (fun h => ((GatherDims.mem_sKept _ _).mp h).1 h0)]
    simp only [Nat.add_zero]
    unfold GatherDims.start
    rw [dif_pos h0]
    -- component 0 of the pair sits at column 0 of the start indices
    have hsi : (pairGatherDims A B E wf).siIdx (ix1 e) ⟨List.idxOf (0 : Fin 2) (pairGatherDims A B E wf).startIndexMap,
        List.idxOf_lt_length_iff.2 h0⟩ = ix2 e (0 : Fin 2) := by
      funext b; refine Fin.ext ?_
      match b with
      | ⟨0, _⟩ => rfl
      | ⟨1, _⟩ => rfl
    rw [hsi]
    rfl
  | ⟨1, _⟩ =>
    show (pairGatherDims A B E wf).start (ix1 e) idx 1 + (pairGatherDims A B E wf).batchCoord (ix1 e) 1
        + (pairGatherDims A B E wf).offCoord (ix1 e) 1 = _
    rw [GatherDims.batchCoord_eq_zero _ _ _ List.not_mem_nil,
      GatherDims.offCoord_eq_zero _ _ _ (fun h => ((GatherDims.mem_sKept _ _).mp h).1 h1)]
    simp only [Nat.add_zero]
    unfold GatherDims.start
    rw [dif_pos h1]
    -- component 1 of the pair sits at column 1 of the start indices
    have hsi : (pairGatherDims A B E wf).siIdx (ix1 e) ⟨List.idxOf (1 : Fin 2) (pairGatherDims A B E wf).startIndexMap,
        List.idxOf_lt_length_iff.2 h1⟩ = ix2 e (1 : Fin 2) := by
      funext b; refine Fin.ext ?_
      match b with
      | ⟨0, _⟩ => rfl
      | ⟨1, _⟩ => rfl
    rw [hsi]
    rfl

end Cert.Lib

end
-- ==== Proof.LibConcatPair.lean ====
/-
  Two arrays joined along one axis, read at an index.

  A matrix of A columns joined on its right to a matrix of B columns (a concatenation along axis 1 into T columns): at
  column j < A the joined matrix reads the first at column j, and at column A + i it reads the second at column i.  The same
  for two vectors joined end to end (a concatenation along axis 0 of rank-1 arrays).  Any element type.
-/
import Idealize.ShloMosaic.Lib.Pipeline.Value
import Idealize.ShloMosaic.Lib.ValueIdx

namespace Cert.Lib.ConcatPair

open Idealize.ShloMosaic Idealize.ShloMosaic.ValueIdx

variable {α : Type}

/-- Two matrices joined side by side, read in the FIRST one's columns. -/
theorem cols_left {R A B T : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, T]⟩ 1) (r : Fin R) (j : Fin T) (i : Fin A) (hi : i.val = j.val) :
    concatenate ⟨2, ![R, T]⟩ 1 [⟨⟨2, ![R, A]⟩, x₁⟩, ⟨⟨2, ![R, B]⟩, x₂⟩] h (ix2 r j) = x₁ (ix2 r i) :=
  concatenate_pair_apply_left (1 : Fin 2) x₁ x₂ h (ix2 r j) rfl (ix2 r i) (fun b => match b with
    | ⟨0, _⟩ => rfl
    | ⟨1, _⟩ => hi)

/-- Two matrices joined side by side, read in the SECOND one's columns: column A + i of the join is its column i. -/
theorem cols_right {R A B T : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, T]⟩ 1) (r : Fin R) (j : Fin T) (i : Fin B) (hi : i.val + A = j.val) :
    concatenate ⟨2, ![R, T]⟩ 1 [⟨⟨2, ![R, A]⟩, x₁⟩, ⟨⟨2, ![R, B]⟩, x₂⟩] h (ix2 r j) = x₂ (ix2 r i) :=
  concatenate_pair_apply_right (1 : Fin 2) x₁ x₂ h (ix2 r j) rfl rfl (ix2 r i) (fun b => match b with
    | ⟨0, _⟩ => fun _ => rfl
    | ⟨1, _⟩ => fun hb => absurd rfl hb) hi

/-- Two vectors joined end to end, read in the FIRST one's stretch. -/
theorem vec_left {A B T : Nat} (x₁ : (⟨1, ![A]⟩ : Shape).Idx → α) (x₂ : (⟨1, ![B]⟩ : Shape).Idx → α)
    (h : Shape.Concatenates [⟨1, ![A]⟩, ⟨1, ![B]⟩] ⟨1, ![T]⟩ 0) (j : Fin T) (i : Fin A) (hi : i.val = j.val) :
    concatenate ⟨1, ![T]⟩ 0 [⟨⟨1, ![A]⟩, x₁⟩, ⟨⟨1, ![B]⟩, x₂⟩] h (ix1 j) = x₁ (ix1 i) :=
  concatenate_pair_apply_left (0 : Fin 1) x₁ x₂ h (ix1 j) rfl (ix1 i) (fun b => match b with
    | ⟨0, _⟩ => hi)

/-- Two vectors joined end to end, read in the SECOND one's stretch: position A + i of the join is its position i. -/
theorem vec_right {A B T : Nat} (x₁ : (⟨1, ![A]⟩ : Shape).Idx → α) (x₂ : (⟨1, ![B]⟩ : Shape).Idx → α)
    (h : Shape.Concatenates [⟨1, ![A]⟩, ⟨1, ![B]⟩] ⟨1, ![T]⟩ 0) (j : Fin T) (i : Fin B) (hi : i.val + A = j.val) :
    concatenate ⟨1, ![T]⟩ 0 [⟨⟨1, ![A]⟩, x₁⟩, ⟨⟨1, ![B]⟩, x₂⟩] h (ix1 j) = x₂ (ix1 i) :=
  concatenate_pair_apply_right (0 : Fin 1) x₁ x₂ h (ix1 j) rfl rfl (ix1 i) (fun b => match b with
    | ⟨0, _⟩ => fun hb => absurd rfl hb) hi

end Cert.Lib.ConcatPair
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibHostRowSum.lean ====
/-
  The host's sum of each row of an [a, b] matrix (a one-operand reduce with an add body over axis 1), read at a row on the
  extended reals: the initial value's one element plus the sum over k of the matrix at (p, k). Any a, b, any float format.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- HOST ROW SUMS: at row p, the initial value plus the sum over k of the matrix at (p, k). -/
theorem hostRowSum_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  simp only [Host.reduceAdd, Ideal.hostReduceAdd_def]
  rw [Ideal.hostReduceAdd_single h' h]
  refine congrArg (_ + ·) (Finset.sum_congr rfl fun k _ => ?_)
  exact congrArg x (funext fun c => Fin.ext (by match c with | ⟨0, _⟩ => rfl | ⟨1, _⟩ => rfl))

end Cert.Lib

end
-- ==== Proof.RefRead.lean ====
/-
  The reference program's half-energy of one pair, read at a pair index on the extended reals.

  The reference forms, for every pair p at once, arrays over the pair axis; this file reads each of them at one p and
  names what is found there in the vocabulary of PairSpec.

  * An end-point index vector a (pair_i or pair_j) is wrapped (a negative entry raised by the extent it indexes), given
    a unit second axis, and used as the start indices of a gather.  Compare, add and select act entry by entry, so entry
    (p, 0) of that column is `wrap n (a p)`, and since a gather clamps its start index into the axis, the row it reads
    of a 500000-row operand is `atom a p`.  The species vector gathered this way gives `label a5 a p`.
  * The two label vectors are wrapped by 4, laid out as columns and joined side by side into the [P, 2] array of start
    PAIRS of a gather of single entries of a 4×4 table: column 0 is the first label, column 1 the second, so the entry
    read is the table at `(rowE a5 a6 p, rowE a5 a7 p)`.  This holds for each of the three tables.
  * The displacement is the difference of two row gathers of the positions plus the matrix product of the cell shifts
    (converted to reals) with the cell matrix; at (p, k) the product is the sum over the three lattice vectors, which is
    `dR`.  The squared distance is the row sum of the squares from the initial value zero: `r2R`.
  * Everything after that is arithmetic entry by entry: σ³ as (σ·σ)·σ, its square over (r²·r²)·r² is `qR`, and
    ½·((4·ε)·(q·q − q) − shift) is `rForm`.

  Each step is first proved over arbitrary arrays of the printed shapes and only then applied to the composed terms
  of the run, whose definitions unfold to exactly those shapes of expression.
-/
import proofs.«181528_j7138235646413_2_alg».proof.Proof.Gen.ReferenceIdeal.Run
import proofs.«181528_j7138235646413_2_alg».proof.Proof.PairSpec
import proofs.«181528_j7138235646413_2_alg».proof.Proof.LibEdgeGatherScatter
import proofs.«181528_j7138235646413_2_alg».proof.Proof.LibEdgeGatherVec
import proofs.«181528_j7138235646413_2_alg».proof.Proof.LibPairGather
import proofs.«181528_j7138235646413_2_alg».proof.Proof.LibConcatPair
import proofs.«181528_j7138235646413_2_alg».proof.Proof.LibPlainDot
import proofs.«181528_j7138235646413_2_alg».proof.Proof.LibHostRowSum

noncomputable section

namespace Cert.ReferenceIdeal.PairRead

open Cert.ReferenceIdeal Cert.ReferenceIdeal.Facts₀ Cert.ReferenceIdeal.Facts Cert.ReferenceIdeal.Value Cert.PairSpec
  Idealize.ShloMosaic Idealize.ShloMosaic.ValueIdx

/-! ## An index vector wrapped and laid out as a column -/

/-- Entry `(p, c)` of the column made of an index vector `a` — every negative entry raised by `n`, the vector then
    given a unit second axis — is `wrap n` of `a`'s entry `p`: compare, add and select act entry by entry, and
    the two constants are the same at every entry. -/
theorem wcol_apply (n : BitVec 32) (a : IVec S16000000 32) (p : Fin 16000000) (c : Fin 1) :
    broadcastInDim S16000000x1 ![0] bcast_S16000000_S16000000x1_0
        (select (cmpi .slt a (broadcastInDim S16000000 ![] bcast_S_S16000000 (constantI S_ 32 0#32)))
          (addi a (broadcastInDim S16000000 ![] bcast_S_S16000000 (constantI S_ 32 n))) a) (ix2 p c)
      = wrap n (a (ix1 p)) := by
  refine (broadcastInDim_apply _ _ _ (ix2 p c) (ix1 p) (fun b => ?_)).trans rfl
  match b with
  | ⟨0, _⟩ => exact (if_neg (show ¬ (16000000 : Nat) = 1 by decide)).symm

/-- The row of a 500000-row operand that the wrapped column of `a` selects for pair `p` is `atom a p`. -/
theorem clampRow_wcol (a : IVec S16000000 32) (p : Fin 16000000) :
    Cert.Lib.clampRow 500000 (by decide)
        (broadcastInDim S16000000x1 ![0] bcast_S16000000_S16000000x1_0
          (select (cmpi .slt a (broadcastInDim S16000000 ![] bcast_S_S16000000 (constantI S_ 32 0#32)))
            (addi a (broadcastInDim S16000000 ![] bcast_S_S16000000 (constantI S_ 32 500000#32))) a)) p
      = atom a p :=
  Fin.ext (congrArg (fun x : BitVec 32 => min x.toInt.toNat (500000 - 1)) (wcol_apply 500000#32 a p 0))

/-! ## The species labels of a pair's end points -/

/-- The label vector gathered through the wrapped column of `a`, at pair `p`: the label of atom `atom a p`. -/
theorem label_read (a5 : IVec S500000 32) (a : IVec S16000000 32) (p : Fin 16000000) :
    Host.gather gather_S500000_S16000000x1_S16000000_n_0_n_n_0_1_1 a5
        (broadcastInDim S16000000x1 ![0] bcast_S16000000_S16000000x1_0
          (select (cmpi .slt a (broadcastInDim S16000000 ![] bcast_S_S16000000 (constantI S_ 32 0#32)))
            (addi a (broadcastInDim S16000000 ![] bcast_S_S16000000 (constantI S_ 32 500000#32))) a)) (ix1 p)
      = label a5 a p :=
  (Cert.Lib.gather_vec_apply (by decide) gather_S500000_S16000000x1_S16000000_n_0_n_n_0_1_1_wf a5 _ p).trans
    (congrArg (fun r : Fin 500000 => a5 (ix1 r)) (clampRow_wcol a p))

section AtValuation
variable (V0 : Valuation τ sig (Elt Ideal)) (p : Fin 16000000)

theorem v6_read : res_main_v6 V0 (ix1 p)
    = label (V0 (Proc.devRef .tc main_arg5)) (V0 (Proc.devRef .tc main_arg6)) p :=
  label_read _ _ p

theorem v13_read : res_main_v13 V0 (ix1 p)
    = label (V0 (Proc.devRef .tc main_arg5)) (V0 (Proc.devRef .tc main_arg7)) p :=
  label_read _ _ p

end AtValuation

/-! ## The 4×4 tables read at a pair's two labels -/

/-- Two matrix indices with equal coordinates are equal. -/
theorem ix2_congr {n0 n1 : Nat} {a a' : Fin n0} {b b' : Fin n1} (ha : a.val = a'.val) (hb : b.val = b'.val) :
    ix2 a b = ix2 a' b' := by
  rw [Fin.ext ha, Fin.ext hb]

/-- A 4×4 table gathered through the PAIRS whose two components are two label vectors `l1`, `l2`, each wrapped by 4
    and laid out as a column, the two columns joined side by side: at pair `p` the table's entry at the row
    `l1[p]` and the column `l2[p]`, each wrapped by 4 and clamped into `[0, 4)`.  Column 0 of the joined array
    is the first wrapped column and column 1 the second. -/
theorem table_read {α : Type} (t : S4x4.Idx → α) (l1 l2 : IVec S16000000 32) (p : Fin 16000000) :
    Host.gather gather_S4x4_S16000000x2_S16000000_n_01_n_n_01_1_11 t
        (concatenate S16000000x2 1 [⟨S16000000x1, (broadcastInDim S16000000x1 ![0] bcast_S16000000_S16000000x1_0 (select (cmpi .slt l1 (broadcastInDim S16000000 ![] bcast_S_S16000000 (constantI S_ 32 0#32))) (addi l1 (broadcastInDim S16000000 ![] bcast_S_S16000000 (constantI S_ 32 4#32))) l1))⟩, ⟨S16000000x1, (broadcastInDim S16000000x1 ![0] bcast_S16000000_S16000000x1_0 (select (cmpi .slt l2 (broadcastInDim S16000000 ![] bcast_S_S16000000 (constantI S_ 32 0#32))) (addi l2 (broadcastInDim S16000000 ![] bcast_S_S16000000 (constantI S_ 32 4#32))) l2))⟩] concatenates_S16000000x1_S16000000x1_S16000000x2_d1) (ix1 p)
      = t (ix2 (clampIx 4 (by decide) (wrap 4#32 (l1 (ix1 p)))) (clampIx 4 (by decide) (wrap 4#32 (l2 (ix1 p))))) := by
  have h0 : (concatenate S16000000x2 1 [⟨S16000000x1, (broadcastInDim S16000000x1 ![0] bcast_S16000000_S16000000x1_0 (select (cmpi .slt l1 (broadcastInDim S16000000 ![] bcast_S_S16000000 (constantI S_ 32 0#32))) (addi l1 (broadcastInDim S16000000 ![] bcast_S_S16000000 (constantI S_ 32 4#32))) l1))⟩, ⟨S16000000x1, (broadcastInDim S16000000x1 ![0] bcast_S16000000_S16000000x1_0 (select (cmpi .slt l2 (broadcastInDim S16000000 ![] bcast_S_S16000000 (constantI S_ 32 0#32))) (addi l2 (broadcastInDim S16000000 ![] bcast_S_S16000000 (constantI S_ 32 4#32))) l2))⟩] concatenates_S16000000x1_S16000000x1_S16000000x2_d1) (ix2 p (0 : Fin 2)) = wrap 4#32 (l1 (ix1 p)) :=
    (Cert.Lib.ConcatPair.cols_left _ _ _ p (0 : Fin 2) (0 : Fin 1) rfl).trans (wcol_apply 4#32 l1 p 0)
  have h1 : (concatenate S16000000x2 1 [⟨S16000000x1, (broadcastInDim S16000000x1 ![0] bcast_S16000000_S16000000x1_0 (select (cmpi .slt l1 (broadcastInDim S16000000 ![] bcast_S_S16000000 (constantI S_ 32 0#32))) (addi l1 (broadcastInDim S16000000 ![] bcast_S_S16000000 (constantI S_ 32 4#32))) l1))⟩, ⟨S16000000x1, (broadcastInDim S16000000x1 ![0] bcast_S16000000_S16000000x1_0 (select (cmpi .slt l2 (broadcastInDim S16000000 ![] bcast_S_S16000000 (constantI S_ 32 0#32))) (addi l2 (broadcastInDim S16000000 ![] bcast_S_S16000000 (constantI S_ 32 4#32))) l2))⟩] concatenates_S16000000x1_S16000000x1_S16000000x2_d1) (ix2 p (1 : Fin 2)) = wrap 4#32 (l2 (ix1 p)) :=
    (Cert.Lib.ConcatPair.cols_right _ _ _ p (1 : Fin 2) (0 : Fin 1) rfl).trans (wcol_apply 4#32 l2 p 0)
  exact (Cert.Lib.gather_pair_apply (by decide) (by decide) gather_S4x4_S16000000x2_S16000000_n_01_n_n_01_1_11_wf t _ p).trans
    (congrArg t (ix2_congr (congrArg (fun x : BitVec 32 => min x.toInt.toNat (4 - 1)) h0)
      (congrArg (fun x : BitVec 32 => min x.toInt.toNat (4 - 1)) h1)))

section AtValuation
variable (V0 : Valuation τ sig (Elt Ideal)) (p : Fin 16000000)

/-- A table gathered through the reference's own label pairs, at pair `p`: the entry at `(rowE … a6 p, rowE … a7 p)`. -/
theorem table_at {α : Type} (t : S4x4.Idx → α) :
    Host.gather gather_S4x4_S16000000x2_S16000000_n_01_n_n_01_1_11 t
        (concatenate S16000000x2 1 [⟨S16000000x1, (broadcastInDim S16000000x1 ![0] bcast_S16000000_S16000000x1_0 (select (cmpi .slt (res_main_v6 V0) (broadcastInDim S16000000 ![] bcast_S_S16000000 (constantI S_ 32 0#32))) (addi (res_main_v6 V0) (broadcastInDim S16000000 ![] bcast_S_S16000000 (constantI S_ 32 4#32))) (res_main_v6 V0)))⟩, ⟨S16000000x1, (broadcastInDim S16000000x1 ![0] bcast_S16000000_S16000000x1_0 (select (cmpi .slt (res_main_v13 V0) (broadcastInDim S16000000 ![] bcast_S_S16000000 (constantI S_ 32 0#32))) (addi (res_main_v13 V0) (broadcastInDim S16000000 ![] bcast_S_S16000000 (constantI S_ 32 4#32))) (res_main_v13 V0)))⟩] concatenates_S16000000x1_S16000000x1_S16000000x2_d1) (ix1 p)
      = t (ix2 (rowE (V0 (Proc.devRef .tc main_arg5)) (V0 (Proc.devRef .tc main_arg6)) p)
              (rowE (V0 (Proc.devRef .tc main_arg5)) (V0 (Proc.devRef .tc main_arg7)) p)) :=
  (table_read t (res_main_v6 V0) (res_main_v13 V0) p).trans
    (congrArg t (ix2_congr
      (congrArg (fun x : BitVec 32 => (clampIx 4 (by decide) (wrap 4#32 x)).val) (v6_read V0 p))
      (congrArg (fun x : BitVec 32 => (clampIx 4 (by decide) (wrap 4#32 x)).val) (v13_read V0 p))))

theorem v27_read : res_main_v27 V0 (ix1 p)
    = (V0 (Proc.devRef .tc main_arg2)) (ix2 (rowE (V0 (Proc.devRef .tc main_arg5)) (V0 (Proc.devRef .tc main_arg6)) p)
        (rowE (V0 (Proc.devRef .tc main_arg5)) (V0 (Proc.devRef .tc main_arg7)) p)) :=
  table_at V0 p _

end AtValuation

/-! ## Pointwise readings of the composed arithmetic, over arbitrary arrays -/

/-- A difference plus a third array, at an index. -/
theorem addf_subf_at {s : Shape} (x y z : FVec Ideal s .f32) (i : s.Idx) :
    addf (subf x y) z i = (x i - y i) + z i := rfl

/-- `(s·s·s)·(s·s·s)` divided by `(r·r)·r`, at an index. -/
theorem q_at {sh : Shape} (s r : FVec Ideal sh .f32) (i : sh.Idx) :
    Host.divf (mulf (mulf (mulf s s) s) (mulf (mulf s s) s)) (mulf (mulf r r) r) i
      = Ideal.div (((s i * s i) * s i) * ((s i * s i) * s i)) ((r i * r i) * r i) := rfl

/-- `½ · ((4·g3)·(q·q − q) − g4)` with the two constants spread over the pair axis, at an index. -/
theorem energy_at (g3 q g4 : FVec Ideal S16000000 .f32) (i : S16000000.Idx) :
    mulf (broadcastInDim S16000000 ![] bcast_S_S16000000 (constant S_ .f32 0x3F000000#32))
        (subf (mulf (mulf (broadcastInDim S16000000 ![] bcast_S_S16000000 (constant S_ .f32 0x40800000#32)) g3)
          (subf (mulf q q) q)) g4) i
      = Ideal.ofBits .f32 0x3F000000#32 * ((Ideal.ofBits .f32 0x40800000#32 * g3 i) * (q i * q i - q i) - g4 i) := rfl

/-! ## The displacement of a pair -/

/-- Component `k` of pair `p`'s displacement: the position rows gathered through the two wrapped index columns,
    subtracted, plus the integer cell shifts (as reals) times the cell matrix — the matrix product read as the sum over
    the three lattice vectors. -/
theorem disp_read (a0 : FVec Ideal S500000x3 .f32) (a1 : FVec Ideal S3x3 .f32) (a6 a7 : IVec S16000000 32)
    (a8 : IVec S16000000x3 32) (p : Fin 16000000) (k : Fin 3) :
    addf (subf (Host.gather gather_S500000x3_S16000000x1_S16000000x3_1_0_n_n_0_1_13 a0 (broadcastInDim S16000000x1 ![0] bcast_S16000000_S16000000x1_0 (select (cmpi .slt a7 (broadcastInDim S16000000 ![] bcast_S_S16000000 (constantI S_ 32 0#32))) (addi a7 (broadcastInDim S16000000 ![] bcast_S_S16000000 (constantI S_ 32 500000#32))) a7)))
          (Host.gather gather_S500000x3_S16000000x1_S16000000x3_1_0_n_n_0_1_13 a0 (broadcastInDim S16000000x1 ![0] bcast_S16000000_S16000000x1_0 (select (cmpi .slt a6 (broadcastInDim S16000000 ![] bcast_S_S16000000 (constantI S_ 32 0#32))) (addi a6 (broadcastInDim S16000000 ![] bcast_S_S16000000 (constantI S_ 32 500000#32))) a6))))
        (Host.dotGeneral dot_S16000000x3_S3x3_S16000000x3_1_0_0_1_n_n none (sitofp .f32 a8) a1) (ix2 p k)
      = dR a0 a1 a6 a7 a8 p k := by
  have hg7 : Host.gather gather_S500000x3_S16000000x1_S16000000x3_1_0_n_n_0_1_13 a0 (broadcastInDim S16000000x1 ![0] bcast_S16000000_S16000000x1_0 (select (cmpi .slt a7 (broadcastInDim S16000000 ![] bcast_S_S16000000 (constantI S_ 32 0#32))) (addi a7 (broadcastInDim S16000000 ![] bcast_S_S16000000 (constantI S_ 32 500000#32))) a7)) (ix2 p k) = a0 (ix2 (atom a7 p) k) :=
    (Cert.Lib.gather_rows_apply (by decide) gather_S500000x3_S16000000x1_S16000000x3_1_0_n_n_0_1_13_wf a0 _ p k).trans
      (congrArg (fun r : Fin 500000 => a0 (ix2 r k)) (clampRow_wcol a7 p))
  have hg6 : Host.gather gather_S500000x3_S16000000x1_S16000000x3_1_0_n_n_0_1_13 a0 (broadcastInDim S16000000x1 ![0] bcast_S16000000_S16000000x1_0 (select (cmpi .slt a6 (broadcastInDim S16000000 ![] bcast_S_S16000000 (constantI S_ 32 0#32))) (addi a6 (broadcastInDim S16000000 ![] bcast_S_S16000000 (constantI S_ 32 500000#32))) a6)) (ix2 p k) = a0 (ix2 (atom a6 p) k) :=
    (Cert.Lib.gather_rows_apply (by decide) gather_S500000x3_S16000000x1_S16000000x3_1_0_n_n_0_1_13_wf a0 _ p k).trans
      (congrArg (fun r : Fin 500000 => a0 (ix2 r k)) (clampRow_wcol a6 p))
  have hd : Host.dotGeneral dot_S16000000x3_S3x3_S16000000x3_1_0_0_1_n_n none (sitofp .f32 a8) a1 (ix2 p k) = ∑ q : Fin 3, shf a8 p q * a1 (ix2 q k) :=
    Cert.Lib.dotGeneral_plain_apply dot_S16000000x3_S3x3_S16000000x3_1_0_0_1_n_n_wf none .single (sitofp .f32 a8) a1 p k
  refine (addf_subf_at _ _ _ _).trans ?_
  rw [hg7, hg6, hd]
  rfl

/-! ## The squared distance -/

/-- The row sums of the squared components, at pair `p`: zero plus the sum over the three components of the squares. -/
theorem r2_read (D : FVec Ideal S16000000x3 .f32) (p : Fin 16000000) :
    Host.reduceAdd (mulf D D) (constant S_ .f32 0x00000000#32) reducesTo_S16000000x3_S16000000_d1 h_S_ (ix1 p)
      = Ideal.ofBits .f32 0x00000000#32 + ∑ k : Fin 3, D (ix2 p k) * D (ix2 p k) :=
  Cert.Lib.hostRowSum_apply (mulf D D) (constant S_ .f32 0x00000000#32) reducesTo_S16000000x3_S16000000_d1 (by decide) h_S_ p

/-! ## The reference's composed terms at a pair -/

section AtValuation
variable (V0 : Valuation τ sig (Elt Ideal)) (p : Fin 16000000)

theorem v73_read (k : Fin 3) : res_main_v73 V0 (ix2 p k)
    = dR (V0 (Proc.devRef .tc main_arg0)) (V0 (Proc.devRef .tc main_arg1)) (V0 (Proc.devRef .tc main_arg6)) (V0 (Proc.devRef .tc main_arg7)) (V0 (Proc.devRef .tc main_arg8)) p k :=
  disp_read _ _ _ _ _ p k

theorem v75_read : res_main_v75 V0 (ix1 p)
    = r2R (V0 (Proc.devRef .tc main_arg0)) (V0 (Proc.devRef .tc main_arg1)) (V0 (Proc.devRef .tc main_arg6)) (V0 (Proc.devRef .tc main_arg7)) (V0 (Proc.devRef .tc main_arg8)) p :=
  (r2_read (res_main_v73 V0) p).trans
    (congrArg (fun x => Ideal.ofBits .f32 0x00000000#32 + x)
      (Finset.sum_congr rfl fun k _ => by rw [v73_read V0 p k]))

theorem v81_read : res_main_v81 V0 (ix1 p)
    = qR (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) p := by
  refine (q_at (res_main_v27 V0) (res_main_v75 V0) (ix1 p)).trans ?_
  rw [v27_read V0 p, v75_read V0 p]
  rfl

/-- THE END RESULT: the update the reference scatters for pair `p` is `rForm` of the argument arrays at `p`. -/
theorem ref_pair :
    mulf (broadcastInDim S16000000 ![] bcast_S_S16000000 (constant S_ .f32 0x3F000000#32)) (res_main_v87 V0) (ix1 p)
      = rForm (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) p := by
  refine (energy_at _ _ _ (ix1 p)).trans ?_
  rw [table_at V0 p (V0 (Proc.devRef .tc main_arg3)), v81_read V0 p, table_at V0 p (V0 (Proc.devRef .tc main_arg4))]
  rfl

end AtValuation

end Cert.ReferenceIdeal.PairRead

end
-- ==== Proof.SpeciesRange.lean ====
/-
  The species labels are small. The precondition ends in two "for all atoms" checks of the label array,
  0 ≤ species[n] and species[n] < 4 (signed); read at one atom n they say that the label, as a signed integer,
  lies in [0, 4). Two consequences for the pair look-ups that follow. A label s in [0, 4) is not negative, so the
  "add the table length when the index is negative" wrap leaves it alone. For two such labels s and t the flat
  index 4·s + t lies in [0, 16): nothing overflows in 32 bits, the same wrap (by 16) leaves it alone, and as a
  natural number it is exactly 4·s + t with both digits below 4, i.e. the row-major position of entry (s, t) of a
  4 × 4 table.
-/
import proofs.«181528_j7138235646413_2_alg».proof.Pre_finite_inputs
import Idealize.ShloMosaic.Lib.ReduceAll
import Idealize.ShloMosaic.Lib.ValueIdx
import Idealize.ShloMosaic.Lib.Affine

noncomputable section

namespace Cert.SpeciesRange

open Idealize.ShloMosaic Cert.Pre_finite_inputs

/-! ## A 32-bit word whose signed value is in [0, 4) is one of 0, 1, 2, 3 -/

/-- The signed value of a word is its unsigned value when that is below 2³¹, and negative otherwise; so a signed
    value in [0, 4) forces the unsigned value into [0, 4), and a word is determined by its unsigned value. -/
theorem eq_small (s : BitVec 32) (hs : 0 ≤ s.toInt ∧ s.toInt < 4) :
    s = 0#32 ∨ s = 1#32 ∨ s = 2#32 ∨ s = 3#32 := by
  have h32 := s.isLt
  have hn : s.toNat < 4 := by
    rw [BitVec.toInt_eq_toNat_cond] at hs
    split at hs <;> omega
  have hc : s.toNat = 0 ∨ s.toNat = 1 ∨ s.toNat = 2 ∨ s.toNat = 3 := by omega
  rcases hc with h | h | h | h
  · exact Or.inl (BitVec.eq_of_toNat_eq h)
  · exact Or.inr (Or.inl (BitVec.eq_of_toNat_eq h))
  · exact Or.inr (Or.inr (Or.inl (BitVec.eq_of_toNat_eq h)))
  · exact Or.inr (Or.inr (Or.inr (BitVec.eq_of_toNat_eq h)))

/-! ## What the range gives the two table look-ups -/

/-- A label in [0, 4) is not negative: the wrap by the table length 4 returns it unchanged. -/
theorem select_wrap_label (s : BitVec 32) (hs : 0 ≤ s.toInt ∧ s.toInt < 4) :
    Scalar.select (IntOp.cmpi .slt s 0#32) (IntOp.addi s 4#32) s = s := by
  rcases eq_small s hs with rfl | rfl | rfl | rfl <;> decide

/-- For labels s, t in [0, 4) the flat index 4·s + t is in [0, 16), so not negative: the wrap by 16 returns it
    unchanged. -/
theorem select_wrap_flat (s t : BitVec 32) (hs : 0 ≤ s.toInt ∧ s.toInt < 4) (ht : 0 ≤ t.toInt ∧ t.toInt < 4) :
    Scalar.select (IntOp.cmpi .slt (IntOp.addi (IntOp.muli s 4#32) t) 0#32)
        (IntOp.addi (IntOp.addi (IntOp.muli s 4#32) t) 16#32) (IntOp.addi (IntOp.muli s 4#32) t)
      = IntOp.addi (IntOp.muli s 4#32) t := by
  rcases eq_small s hs with rfl | rfl | rfl | rfl <;> rcases eq_small t ht with rfl | rfl | rfl | rfl <;> decide

/-- The flat index, as a natural number, is 4·s + t: no wrap-around happens in 32 bits. -/
theorem flat_toNat (s t : BitVec 32) (hs : 0 ≤ s.toInt ∧ s.toInt < 4) (ht : 0 ≤ t.toInt ∧ t.toInt < 4) :
    (IntOp.addi (IntOp.muli s 4#32) t).toInt.toNat = 4 * s.toInt.toNat + t.toInt.toNat := by
  rcases eq_small s hs with rfl | rfl | rfl | rfl <;> rcases eq_small t ht with rfl | rfl | rfl | rfl <;> decide

/-- A label in [0, 4), as a natural number, is below 4: a digit of the flat index. -/
theorem label_toNat_lt (s : BitVec 32) (hs : 0 ≤ s.toInt ∧ s.toInt < 4) : s.toInt.toNat < 4 := by
  omega

/-! ## The range, read out of the precondition -/

/-- The scalar shape has exactly one index. -/
instance : Subsingleton S_.Idx := ⟨fun a b => funext fun d => d.elim0⟩

/-- The precondition is a conjunction (a chain of one-bit "and"s) whose last two conjuncts are the two "for all atoms"
    checks of the labels. The whole being 1 makes each conjunct 1; a "for all" that is 1 is 1 at every atom; and at
    atom n the two comparisons say 0 ≤ species[n] and species[n] < 4 as signed integers. -/
theorem species_range [Cert.Pre_finite_inputs.Facts] {F : FTy → Type} [FloatOps F]
    (a0 : FVec F S500000x3 .f32) (a1 : FVec F S3x3 .f32) (a2 : FVec F S4x4 .f32) (a3 : FVec F S4x4 .f32)
    (a4 : FVec F S4x4 .f32) (a5 : IVec S500000 32) (a6 : IVec S16000000 32) (a7 : IVec S16000000 32)
    (a8 : IVec S16000000x3 32)
    (h : Cert.Pre_finite_inputs.fn (F := F) a0 a1 a2 a3 a4 a5 a6 a7 a8 = fun _ => 1#1) (n : Fin 500000) :
    0 ≤ (a5 (ValueIdx.ix1 n)).toInt ∧ (a5 (ValueIdx.ix1 n)).toInt < 4 := by
  have e := congrFun h ValueIdx.ix0
  dsimp only [fn, fn_part1] at e
  -- the two outermost conjunctions
  obtain ⟨e1, hlt⟩ := IntOp.andi_eq_one.1 e
  obtain ⟨-, hge⟩ := IntOp.andi_eq_one.1 e1
  -- each "for all", at atom n
  have gge := Host.reduce_andi_all _ _ _ _ _ hge (ValueIdx.ix1 n)
  have glt := Host.reduce_andi_all _ _ _ _ _ hlt (ValueIdx.ix1 n)
  -- the comparisons at atom n: against the broadcast constants 0 and 4
  have cge : IntOp.cmpi .sge (a5 (ValueIdx.ix1 n)) 0#32 = 1#1 := gge
  have clt : IntOp.cmpi .slt (a5 (ValueIdx.ix1 n)) 4#32 = 1#1 := glt
  have i0 : (0#32 : BitVec 32).toInt = 0 := by decide
  have i4 : (4#32 : BitVec 32).toInt = 4 := by decide
  have r0 := IntOp.cmpi_sge.1 cge
  have r4 := IntOp.cmpi_slt.1 clt
  rw [i0] at r0
  rw [i4] at r4
  exact ⟨r0, r4⟩

end Cert.SpeciesRange

end
-- ==== Proof.Bridge.lean ====
/-
  The two programs' half-energy of a pair is one number, once the species labels lie in [0, 4).

  Indices. With labels s = species[atom I p] and t = species[atom J p] in [0, 4), the flat position 4·s + t is not
  negative and below 16, so neither the wrap by 16 nor the clamp into [0, 16) changes it, and its row-major split
  (e / 4, e % 4) is (s, t); likewise the wrap by 4 and the clamp into [0, 4) leave s and t alone. So the entry the
  flattened tables give at the flat position is the entry the 4×4 tables give at the two labels.

  Arithmetic. The two displacement formulas differ only in writing the three shift products as a left-nested sum
  or as a sum over the lattice vectors; r² likewise (and the reference's sum starts from the zero word, which is 0);
  σ⁶ is σ²·(σ²·σ²) on one side and (σ·σ·σ)·(σ·σ·σ) on the other, equal because multiplication of extended reals is
  associative and commutative. Nothing here needs the inputs to be finite.
-/
import proofs.«181528_j7138235646413_2_alg».proof.Proof.PairSpec
import proofs.«181528_j7138235646413_2_alg».proof.Proof.SpeciesRange
import Idealize.ShloMosaic.PureOps.Ideal.Laws

noncomputable section

namespace Cert.PairSpec

open Idealize.ShloMosaic Idealize.ShloMosaic.ValueIdx Cert.SpeciesRange

/-- Multiplying out a sixth power in the two groupings. -/
theorem sixth_regroup (y : EReal) : (y * y) * ((y * y) * (y * y)) = ((y * y) * y) * ((y * y) * y) := by
  ac_rfl

section

variable (a0 : FVec Ideal ⟨2, ![500000, 3]⟩ .f32) (a1 : FVec Ideal ⟨2, ![3, 3]⟩ .f32)
  (a2 a3 a4 : FVec Ideal ⟨2, ![4, 4]⟩ .f32) (a5 : IVec ⟨1, ![500000]⟩ 32) (a6 a7 : IVec ⟨1, ![16000000]⟩ 32)
  (a8 : IVec ⟨2, ![16000000, 3]⟩ 32)

/-- The two spellings of a displacement component agree: a sum over three lattice vectors is its three terms. -/
theorem dK_eq_dR (p : Fin 16000000) (k : Fin 3) : dK a0 a1 a6 a7 a8 p k = dR a0 a1 a6 a7 a8 p k := by
  unfold dK dR
  rw [Fin.sum_univ_three]

/-- The reference's r² is the left-nested sum of the three squares. -/
theorem r2R_eq (p : Fin 16000000) :
    r2R a0 a1 a6 a7 a8 p
      = (dR a0 a1 a6 a7 a8 p 0 * dR a0 a1 a6 a7 a8 p 0 + dR a0 a1 a6 a7 a8 p 1 * dR a0 a1 a6 a7 a8 p 1)
          + dR a0 a1 a6 a7 a8 p 2 * dR a0 a1 a6 a7 a8 p 2 := by
  unfold r2R
  rw [Fin.sum_univ_three, Ideal.ofBits_zero_f32, zero_add]

variable (hs : ∀ n : Fin 500000, 0 ≤ (a5 (ix1 n)).toInt ∧ (a5 (ix1 n)).toInt < 4)
include hs

/-- The flat position's row is the first label's table coordinate. -/
theorem unflatR_flatE (p : Fin 16000000) : unflatR (flatE a5 a6 a7 p) = rowE a5 a6 p := by
  have h6 := hs (atom a6 p)
  have h7 := hs (atom a7 p)
  have l6 := label_toNat_lt _ h6
  have l7 := label_toNat_lt _ h7
  apply Fin.ext
  show (min (wrap 16#32 (IntOp.addi (IntOp.muli (label a5 a6 p) 4#32) (label a5 a7 p))).toInt.toNat (16 - 1)) / 4
      = min (wrap 4#32 (label a5 a6 p)).toInt.toNat (4 - 1)
  unfold wrap label
  rw [select_wrap_flat _ _ h6 h7, select_wrap_label _ h6, flat_toNat _ _ h6 h7]
  omega

/-- The flat position's column is the second label's table coordinate. -/
theorem unflatC_flatE (p : Fin 16000000) : unflatC (flatE a5 a6 a7 p) = rowE a5 a7 p := by
  have h6 := hs (atom a6 p)
  have h7 := hs (atom a7 p)
  have l6 := label_toNat_lt _ h6
  have l7 := label_toNat_lt _ h7
  apply Fin.ext
  show (min (wrap 16#32 (IntOp.addi (IntOp.muli (label a5 a6 p) 4#32) (label a5 a7 p))).toInt.toNat (16 - 1)) % 4
      = min (wrap 4#32 (label a5 a7 p)).toInt.toNat (4 - 1)
  unfold wrap label
  rw [select_wrap_flat _ _ h6 h7, select_wrap_label _ h7, flat_toNat _ _ h6 h7]
  omega

/-- THE BRIDGE: with labels in [0, 4) the kernel's and the reference's half-energy of pair p are equal. -/
theorem kForm_eq_rForm (p : Fin 16000000) :
    kForm a0 a1 a2 a3 a4 a5 a6 a7 a8 p = rForm a0 a1 a2 a3 a4 a5 a6 a7 a8 p := by
  unfold kForm rForm qR ljK
  rw [unflatR_flatE a5 a6 a7 hs p, unflatC_flatE a5 a6 a7 hs p, r2R_eq,
    dK_eq_dR a0 a1 a6 a7 a8 p 0, dK_eq_dR a0 a1 a6 a7 a8 p 1, dK_eq_dR a0 a1 a6 a7 a8 p 2, sixth_regroup]

end

end Cert.PairSpec

end
-- ==== Proof.lean ====
/-
  The certificate of the pair-energy kernel against its reference, over the extended reals.

  Both programs compute, for each of 16 000 000 pairs, half of the cut-off-shifted Lennard-Jones energy
  4·ε·((σ/r)¹² − (σ/r)⁶) − shift of the pair, from the end points' positions, the periodic cell shift and the species
  pair's table entries, and add it to both end points' atoms. The kernel program does the per-pair arithmetic in one
  launch over 125 blocks of rows, on arrays its host lines prepared (displacement components, and σ⁶, ε, shift looked
  up in the tables flattened to 16 entries at the flat position 4·species_i + species_j); the reference does everything
  in whole-array operations and looks the parameters up in the 4×4 tables at (species_i, species_j).

  The two look-ups read the same entry exactly when the species labels lie in [0, 4) — outside that range the
  reference itself indexes its 4×4 tables out of range — and that range is part of the precondition. Under it the two
  per-pair half-energies are equal entry by entry (the displacement, r² and σ⁶ differ only in how sums and products are
  grouped), and the two programs then apply the same two accumulations to them. The idealization rewrote nothing, so
  the kernel's idealized text is its own text read over the extended reals.
-/
import proofs.«181528_j7138235646413_2_alg».proof.Defs
import proofs.«181528_j7138235646413_2_alg».proof.Proof.Gen.Kernel
import proofs.«181528_j7138235646413_2_alg».proof.Proof.Gen.Kernel.Skeleton
import proofs.«181528_j7138235646413_2_alg».proof.Proof.Gen.Kernel.Launch
import proofs.«181528_j7138235646413_2_alg».proof.Proof.Gen.Kernel.Points
import proofs.«181528_j7138235646413_2_alg».proof.Proof.Gen.Kernel.Frame
import proofs.«181528_j7138235646413_2_alg».proof.Proof.Gen.KernelIdeal
import proofs.«181528_j7138235646413_2_alg».proof.Proof.Gen.KernelIdeal.Skeleton
import proofs.«181528_j7138235646413_2_alg».proof.Proof.Gen.KernelIdeal.Launch
import proofs.«181528_j7138235646413_2_alg».proof.Proof.Gen.KernelIdeal.Points
import proofs.«181528_j7138235646413_2_alg».proof.Proof.Gen.KernelIdeal.Frame
import proofs.«181528_j7138235646413_2_alg».proof.Proof.Gen.ReferenceIdeal
import proofs.«181528_j7138235646413_2_alg».proof.Proof.Gen.ReferenceIdeal.Run
import proofs.«181528_j7138235646413_2_alg».proof.Proof.Gen.Pre_finite_inputs
import proofs.«181528_j7138235646413_2_alg».proof.Proof.KernelRun
import proofs.«181528_j7138235646413_2_alg».proof.Proof.KernelRead
import proofs.«181528_j7138235646413_2_alg».proof.Proof.RefRead
import proofs.«181528_j7138235646413_2_alg».proof.Proof.Bridge
import proofs.«181528_j7138235646413_2_alg».proof.Proof.SpeciesRange
import Idealize.ShloMosaic.Adequacy
import Idealize.ShloMosaic.Init

noncomputable section

namespace Cert.Proof

open Idealize.ShloMosaic Idealize.ShloMosaic.TcCoe Idealize.SL.Sem Idealize.ShloMosaic.StableHlo Idealize.ShloMosaic.ValueIdx

/-- The reference's two accumulations, over any index vectors and any two equal update vectors, are the kernel
    program's tail: the same two operations with the same dimension numbers (compared argument by argument; the
    accumulation itself is never opened). -/
theorem ref_tail_eq (A6 A7 : IVec Cert.ReferenceIdeal.S16000000 32) (H1 H2 : FVec Ideal Cert.ReferenceIdeal.S16000000 .f32) (hH : H1 = H2) :
    Host.scatterAdd Cert.ReferenceIdeal.scatter_S500000_S16000000x1_S16000000_n_0_0_1
      (Host.scatterAdd Cert.ReferenceIdeal.scatter_S500000_S16000000x1_S16000000_n_0_0_1
        (broadcastInDim Cert.ReferenceIdeal.S500000 ![] Cert.ReferenceIdeal.Facts₀.bcast_S_S500000 (constant Cert.ReferenceIdeal.S_ .f32 0x00000000#32))
        (broadcastInDim Cert.ReferenceIdeal.S16000000x1 ![0] Cert.ReferenceIdeal.Facts₀.bcast_S16000000_S16000000x1_0
          (select (cmpi .slt A6 (broadcastInDim Cert.ReferenceIdeal.S16000000 ![] Cert.ReferenceIdeal.Facts₀.bcast_S_S16000000 (constantI Cert.ReferenceIdeal.S_ 32 0#32)))
            (addi A6 (broadcastInDim Cert.ReferenceIdeal.S16000000 ![] Cert.ReferenceIdeal.Facts₀.bcast_S_S16000000 (constantI Cert.ReferenceIdeal.S_ 32 500000#32))) A6))
        H1)
      (broadcastInDim Cert.ReferenceIdeal.S16000000x1 ![0] Cert.ReferenceIdeal.Facts₀.bcast_S16000000_S16000000x1_0
        (select (cmpi .slt A7 (broadcastInDim Cert.ReferenceIdeal.S16000000 ![] Cert.ReferenceIdeal.Facts₀.bcast_S_S16000000 (constantI Cert.ReferenceIdeal.S_ 32 0#32)))
          (addi A7 (broadcastInDim Cert.ReferenceIdeal.S16000000 ![] Cert.ReferenceIdeal.Facts₀.bcast_S_S16000000 (constantI Cert.ReferenceIdeal.S_ 32 500000#32))) A7))
      H2
    = Cert.KernelIdeal.HostRead.energyTail A6 A7 H1 := by
  subst hH
  rfl

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization's ledger is empty: there is nothing to restate. -/
theorem preserves : Cert.preserves_Kernel_KernelIdeal := trivial

/-- At the extended reals, from memories agreeing on the arguments, both programs end at the same accumulation of the
    same per-pair half-energies: the kernel's run names its result, the reference's run names its own, the two update
    vectors agree pair by pair (each side read at a pair, then the bridge under the label range the precondition
    gives), and the accumulations are the same operations. -/
theorem algebraic : Cert.algebraic_KernelIdeal_ReferenceIdeal := by
  intro m ρ m' ρ' hpre hagree
  refine ⟨_, Cert.KernelIdeal.HostRead.run (F := Ideal) m ρ, ?_⟩
  refine (θ_run Cert.ReferenceIdeal.defs _ _).mono (fun _ h c => ⟨(h c).1.trans ?_, (h c).2⟩) (Cert.ReferenceIdeal.Value.run (F := Ideal) m' ρ')
  have e0 : launchContents m' c (Proc.devRef .tc Cert.ReferenceIdeal.main_arg0) = (m ((c.tc : Thread Cert.KernelIdeal.nD Cert.KernelIdeal.τ).loc Cert.KernelIdeal.main_arg0)) := (hagree c).1
  have e1 : launchContents m' c (Proc.devRef .tc Cert.ReferenceIdeal.main_arg1) = (m ((c.tc : Thread Cert.KernelIdeal.nD Cert.KernelIdeal.τ).loc Cert.KernelIdeal.main_arg1)) := (hagree c).2.1
  have e2 : launchContents m' c (Proc.devRef .tc Cert.ReferenceIdeal.main_arg2) = (m ((c.tc : Thread Cert.KernelIdeal.nD Cert.KernelIdeal.τ).loc Cert.KernelIdeal.main_arg2)) := (hagree c).2.2.1
  have e3 : launchContents m' c (Proc.devRef .tc Cert.ReferenceIdeal.main_arg3) = (m ((c.tc : Thread Cert.KernelIdeal.nD Cert.KernelIdeal.τ).loc Cert.KernelIdeal.main_arg3)) := (hagree c).2.2.2.1
  have e4 : launchContents m' c (Proc.devRef .tc Cert.ReferenceIdeal.main_arg4) = (m ((c.tc : Thread Cert.KernelIdeal.nD Cert.KernelIdeal.τ).loc Cert.KernelIdeal.main_arg4)) := (hagree c).2.2.2.2.1
  have e5 : launchContents m' c (Proc.devRef .tc Cert.ReferenceIdeal.main_arg5) = (m ((c.tc : Thread Cert.KernelIdeal.nD Cert.KernelIdeal.τ).loc Cert.KernelIdeal.main_arg5)) := (hagree c).2.2.2.2.2.1
  have e6 : launchContents m' c (Proc.devRef .tc Cert.ReferenceIdeal.main_arg6) = (m ((c.tc : Thread Cert.KernelIdeal.nD Cert.KernelIdeal.τ).loc Cert.KernelIdeal.main_arg6)) := (hagree c).2.2.2.2.2.2.1
  have e7 : launchContents m' c (Proc.devRef .tc Cert.ReferenceIdeal.main_arg7) = (m ((c.tc : Thread Cert.KernelIdeal.nD Cert.KernelIdeal.τ).loc Cert.KernelIdeal.main_arg7)) := (hagree c).2.2.2.2.2.2.2.1
  have e8 : launchContents m' c (Proc.devRef .tc Cert.ReferenceIdeal.main_arg8) = (m ((c.tc : Thread Cert.KernelIdeal.nD Cert.KernelIdeal.τ).loc Cert.KernelIdeal.main_arg8)) := (hagree c).2.2.2.2.2.2.2.2
  have hs : ∀ n : Fin 500000, 0 ≤ ((m ((c.tc : Thread Cert.KernelIdeal.nD Cert.KernelIdeal.τ).loc Cert.KernelIdeal.main_arg5)) (ix1 n)).toInt ∧ ((m ((c.tc : Thread Cert.KernelIdeal.nD Cert.KernelIdeal.τ).loc Cert.KernelIdeal.main_arg5)) (ix1 n)).toInt < 4 :=
    fun n => Cert.SpeciesRange.species_range _ _ _ _ _ _ _ _ _ (hpre c) n
  refine (ref_tail_eq _ _ _ _ rfl).trans ?_
  rw [e6, e7]
  refine congrArg (Cert.KernelIdeal.HostRead.energyTail _ _) (funext fun i => ?_)
  obtain ⟨p, rfl⟩ : ∃ p : Fin 16000000, i = ix1 p := ⟨i 0, eq_ix1 i⟩
  refine (Cert.ReferenceIdeal.PairRead.ref_pair (launchContents m' c) p).trans ?_
  rw [e0, e1, e2, e3, e4, e5, e6, e7, e8]
  refine (Cert.PairSpec.kForm_eq_rForm _ _ _ _ _ _ _ _ _ hs p).symm.trans ?_
  exact (Cert.KernelIdeal.PairRead.kernel_pair _ _ _ _ _ _ _ _ _ p).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
